-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128 : Shape := ⟨2, ![512, 128]⟩
abbrev S512x512x128 : Shape := ⟨3, ![512, 512, 128]⟩
abbrev S512x14x14 : Shape := ⟨3, ![512, 14, 14]⟩
abbrev S130816x14x14 : Shape := ⟨3, ![130816, 14, 14]⟩
abbrev S256x256 : Shape := ⟨2, ![256, 256]⟩
abbrev S256 : Shape := ⟨1, ![256]⟩
abbrev S256x196 : Shape := ⟨2, ![256, 196]⟩
abbrev S196 : Shape := ⟨1, ![196]⟩
abbrev S384x256 : Shape := ⟨2, ![384, 256]⟩
abbrev S130816 : Shape := ⟨1, ![130816]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel
  bcast_S_S512x512x128 : S_.BroadcastsInDim S512x512x128 (![] : Fin 0 → Fin S512x512x128.rank)
  reducesTo_S512x512x128_S_d0_1_2 : S512x512x128.ReducesTo [0, 1, 2] S_
  bcast_S_S512x14x14 : S_.BroadcastsInDim S512x14x14 (![] : Fin 0 → Fin S512x14x14.rank)
  reducesTo_S512x14x14_S_d0_1_2 : S512x14x14.ReducesTo [0, 1, 2] S_
  bcast_S_S130816x14x14 : S_.BroadcastsInDim S130816x14x14 (![] : Fin 0 → Fin S130816x14x14.rank)
  reducesTo_S130816x14x14_S_d0_1_2 : S130816x14x14.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x196 : S_.BroadcastsInDim S256x196 (![] : Fin 0 → Fin S256x196.rank)
  reducesTo_S256x196_S_d0_1 : S256x196.ReducesTo [0, 1] S_
  bcast_S_S196 : S_.BroadcastsInDim S196 (![] : Fin 0 → Fin S196.rank)
  reducesTo_S196_S_d0 : S196.ReducesTo [0] S_
  bcast_S_S384x256 : S_.BroadcastsInDim S384x256 (![] : Fin 0 → Fin S384x256.rank)
  reducesTo_S384x256_S_d0_1 : S384x256.ReducesTo [0, 1] S_

variable [Facts]

def fn_part3 {F : FTy → Type} [FloatOps F] (main_arg11 : FVec F S196 .f32) (main_v48 : IVec S_ 1) (main_v49 : FVec F S256x196 .f32) (main_v50 : FVec F S256x196 .f32) : IVec S_ 1 :=
  let main_v51 : IVec S256x196 1 := cmpf .olt main_v49 main_v50
  let main_c_19 : IVec S_ 1 := constantI S_ 1 1#1
  let main_v52 : IVec S_ 1 := (fun x v => Host.reduce IntOp.andi x v reducesTo_S256x196_S_d0_1 h_S_) main_v51 main_c_19
  let main_v53 : IVec S_ 1 := andi main_v48 main_v52
  let main_v54 : FVec F S196 .f32 := Host.absf main_arg11
  let main_cst_20 : FVec F S_ .f32 := constant S_ .f32 0x7F800000#32
  let main_v55 : FVec F S196 .f32 := broadcastInDim S196 ![] bcast_S_S196 main_cst_20
  let main_v56 : IVec S196 1 := cmpf .olt main_v54 main_v55
  let main_c_21 : IVec S_ 1 := constantI S_ 1 1#1
  let main_v57 : IVec S_ 1 := (fun x v => Host.reduce IntOp.andi x v reducesTo_S196_S_d0 h_S_) main_v56 main_c_21
  let main_v58 : IVec S_ 1 := andi main_v53 main_v57
  main_v58

def fn_part2 {F : FTy → Type} [FloatOps F] (main_arg7 : FVec F S196 .f32) (main_arg8 : FVec F S384x256 .f32) (main_arg9 : FVec F S256 .f32) (main_arg10 : FVec F S256x196 .f32) (main_arg11 : FVec F S196 .f32) (main_v33 : IVec S_ 1) : IVec S_ 1 :=
  let main_v34 : FVec F S196 .f32 := Host.absf main_arg7
  let main_cst_12 : FVec F S_ .f32 := constant S_ .f32 0x7F800000#32
  let main_v35 : FVec F S196 .f32 := broadcastInDim S196 ![] bcast_S_S196 main_cst_12
  let main_v36 : IVec S196 1 := cmpf .olt main_v34 main_v35
  let main_c_13 : IVec S_ 1 := constantI S_ 1 1#1
  let main_v37 : IVec S_ 1 := (fun x v => Host.reduce IntOp.andi x v reducesTo_S196_S_d0 h_S_) main_v36 main_c_13
  let main_v38 : IVec S_ 1 := andi main_v33 main_v37
  let main_v39 : FVec F S384x256 .f32 := Host.absf main_arg8
  let main_cst_14 : FVec F S_ .f32 := constant S_ .f32 0x7F800000#32
  let main_v40 : FVec F S384x256 .f32 := broadcastInDim S384x256 ![] bcast_S_S384x256 main_cst_14
  let main_v41 : IVec S384x256 1 := cmpf .olt main_v39 main_v40
  let main_c_15 : IVec S_ 1 := constantI S_ 1 1#1
  let main_v42 : IVec S_ 1 := (fun x v => Host.reduce IntOp.andi x v reducesTo_S384x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x196 .f32 := Host.absf main_arg10
  let main_cst_18 : FVec F S_ .f32 := constant S_ .f32 0x7F800000#32
  let main_v50 : FVec F S256x196 .f32 := broadcastInDim S256x196 ![] bcast_S_S256x196 main_cst_18
  fn_part3 (F := F) main_arg11 main_v48 main_v49 main_v50

def fn_part1 {F : FTy → Type} [FloatOps F] (main_arg4 : FVec F S256x256 .f32) (main_arg5 : FVec F S256 .f32) (main_arg6 : FVec F S256x196 .f32) (main_arg7 : FVec F S196 .f32) (main_arg8 : FVec F S384x256 .f32) (main_arg9 : FVec F S256 .f32) (main_arg10 : FVec F S256x196 .f32) (main_arg11 : FVec F S196 .f32) (main_v13 : IVec S_ 1) (main_v16 : IVec S130816x14x14 1) : IVec S_ 1 :=
  let main_c_5 : IVec S_ 1 := constantI S_ 1 1#1
  let main_v17 : IVec S_ 1 := (fun x v => Host.reduce IntOp.andi x v reducesTo_S130816x14x14_S_d0_1_2 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x196 .f32 := Host.absf main_arg6
  let main_cst_10 : FVec F S_ .f32 := constant S_ .f32 0x7F800000#32
  let main_v30 : FVec F S256x196 .f32 := broadcastInDim S256x196 ![] bcast_S_S256x196 main_cst_10
  let main_v31 : IVec S256x196 1 := cmpf .olt main_v29 main_v30
  let main_c_11 : IVec S_ 1 := constantI S_ 1 1#1
  let main_v32 : IVec S_ 1 := (fun x v => Host.reduce IntOp.andi x v reducesTo_S256x196_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S512x128 .f32) (main_arg1 : FVec F S512x512x128 .f32) (main_arg2 : FVec F S512x14x14 .f32) (main_arg3 : FVec F S130816x14x14 .f32) (main_arg4 : FVec F S256x256 .f32) (main_arg5 : FVec F S256 .f32) (main_arg6 : FVec F S256x196 .f32) (main_arg7 : FVec F S196 .f32) (main_arg8 : FVec F S384x256 .f32) (main_arg9 : FVec F S256 .f32) (main_arg10 : FVec F S256x196 .f32) (main_arg11 : FVec F S196 .f32) (main_arg12 : IVec S130816 32) (main_arg13 : IVec S130816 32) : IVec S_ 1 :=
  let main_v0 : FVec F S512x128 .f32 := Host.absf main_arg0
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  let main_v4 : FVec F S512x512x128 .f32 := Host.absf main_arg1
  let main_cst_0 : FVec F S_ .f32 := constant S_ .f32 0x7F800000#32
  let main_v5 : FVec F S512x512x128 .f32 := broadcastInDim S512x512x128 ![] bcast_S_S512x512x128 main_cst_0
  let main_v6 : IVec S512x512x128 1 := cmpf .olt main_v4 main_v5
  let main_c_1 : IVec S_ 1 := constantI S_ 1 1#1
  let main_v7 : IVec S_ 1 := (fun x v => Host.reduce IntOp.andi x v reducesTo_S512x512x128_S_d0_1_2 h_S_) main_v6 main_c_1
  let main_v8 : IVec S_ 1 := andi main_v3 main_v7
  let main_v9 : FVec F S512x14x14 .f32 := Host.absf main_arg2
  let main_cst_2 : FVec F S_ .f32 := constant S_ .f32 0x7F800000#32
  let main_v10 : FVec F S512x14x14 .f32 := broadcastInDim S512x14x14 ![] bcast_S_S512x14x14 main_cst_2
  let main_v11 : IVec S512x14x14 1 := cmpf .olt main_v9 main_v10
  let main_c_3 : IVec S_ 1 := constantI S_ 1 1#1
  let main_v12 : IVec S_ 1 := (fun x v => Host.reduce IntOp.andi x v reducesTo_S512x14x14_S_d0_1_2 h_S_) main_v11 main_c_3
  let main_v13 : IVec S_ 1 := andi main_v8 main_v12
  let main_v14 : FVec F S130816x14x14 .f32 := Host.absf main_arg3
  let main_cst_4 : FVec F S_ .f32 := constant S_ .f32 0x7F800000#32
  let main_v15 : FVec F S130816x14x14 .f32 := broadcastInDim S130816x14x14 ![] bcast_S_S130816x14x14 main_cst_4
  let main_v16 : IVec S130816x14x14 1 := cmpf .olt main_v14 main_v15
  fn_part1 (F := F) main_arg4 main_arg5 main_arg6 main_arg7 main_arg8 main_arg9 main_arg10 main_arg11 main_v13 main_v16
-- ==== Kernel.lean ====
abbrev S512x128 : Shape := ⟨2, ![512, 128]⟩
abbrev S512x512x128 : Shape := ⟨3, ![512, 512, 128]⟩
abbrev S512x14x14 : Shape := ⟨3, ![512, 14, 14]⟩
abbrev S130816x14x14 : Shape := ⟨3, ![130816, 14, 14]⟩
abbrev S256x256 : Shape := ⟨2, ![256, 256]⟩
abbrev S256 : Shape := ⟨1, ![256]⟩
abbrev S256x196 : Shape := ⟨2, ![256, 196]⟩
abbrev S196 : Shape := ⟨1, ![196]⟩
abbrev S384x256 : Shape := ⟨2, ![384, 256]⟩
abbrev S130816 : Shape := ⟨1, ![130816]⟩
abbrev S512 : Shape := ⟨1, ![512]⟩
abbrev S_ : Shape := ⟨0, ![]⟩
abbrev S512x1 : Shape := ⟨2, ![512, 1]⟩
abbrev S512x2 : Shape := ⟨2, ![512, 2]⟩
abbrev S512x256 : Shape := ⟨2, ![512, 256]⟩
abbrev S1x256 : Shape := ⟨2, ![1, 256]⟩
abbrev S512x196 : Shape := ⟨2, ![512, 196]⟩
abbrev S1x196 : Shape := ⟨2, ![1, 196]⟩
abbrev S512x512x196 : Shape := ⟨3, ![512, 512, 196]⟩
abbrev S64x64x128 : Shape := ⟨3, ![64, 64, 128]⟩
abbrev S64x64x196 : Shape := ⟨3, ![64, 64, 196]⟩
abbrev S64x128 : Shape := ⟨2, ![64, 128]⟩
abbrev S64x1x128 : Shape := ⟨3, ![64, 1, 128]⟩
abbrev S1x64x128 : Shape := ⟨3, ![1, 64, 128]⟩
abbrev S64x64x384 : Shape := ⟨3, ![64, 64, 384]⟩
abbrev S4096x384 : Shape := ⟨2, ![4096, 384]⟩
abbrev S4096x256 : Shape := ⟨2, ![4096, 256]⟩
abbrev S4096x196 : Shape := ⟨2, ![4096, 196]⟩
abbrev S130816x1 : Shape := ⟨2, ![130816, 1]⟩
abbrev S130816x2 : Shape := ⟨2, ![130816, 2]⟩
abbrev S130816x196 : Shape := ⟨2, ![130816, 196]⟩
abbrev S512x14x512x14 : Shape := ⟨4, ![512, 14, 512, 14]⟩
abbrev S7168x7168 : Shape := ⟨2, ![7168, 7168]⟩

abbrev nBuf : Space → Nat
  | .hbm => 135
  | .vmem => 9
  | .smem => 0
  | _ => 0

abbrev hbmTy0_0 (i : Nat) : BufTy := match i % 128 with
  | 0 => ⟨S512x128, .f32⟩
  | 1 => ⟨S512x512x128, .f32⟩
  | 2 => ⟨S512x14x14, .f32⟩
  | 3 => ⟨S130816x14x14, .f32⟩
  | 4 => ⟨S256x256, .f32⟩
  | 5 => ⟨S256, .f32⟩
  | 6 => ⟨S256x196, .f32⟩
  | 7 => ⟨S196, .f32⟩
  | 8 => ⟨S384x256, .f32⟩
  | 9 => ⟨S256, .f32⟩
  | 10 => ⟨S256x196, .f32⟩
  | 11 => ⟨S196, .f32⟩
  | 12 => ⟨S130816, .i32⟩
  | 13 => ⟨S130816, .i32⟩
  | 14 => ⟨S512, .i32⟩
  | 15 => ⟨S_, .i32⟩
  | 16 => ⟨S512, .i32⟩
  | 17 => ⟨S512, .i1⟩
  | 18 => ⟨S_, .i32⟩
  | 19 => ⟨S512, .i32⟩
  | 20 => ⟨S512, .i32⟩
  | 21 => ⟨S512, .i32⟩
  | 22 => ⟨S_, .i32⟩
  | 23 => ⟨S512, .i32⟩
  | 24 => ⟨S512, .i1⟩
  | 25 => ⟨S_, .i32⟩
  | 26 => ⟨S512, .i32⟩
  | 27 => ⟨S512, .i32⟩
  | 28 => ⟨S512, .i32⟩
  | 29 => ⟨S512x1, .i32⟩
  | 30 => ⟨S512x1, .i32⟩
  | 31 => ⟨S512x2, .i32⟩
  | 32 => ⟨S512x128, .f32⟩
  | 33 => ⟨S512x256, .f32⟩
  | 34 => ⟨S512x256, .f32⟩
  | 35 => ⟨S1x256, .f32⟩
  | 36 => ⟨S512x256, .f32⟩
  | 37 => ⟨S512x256, .f32⟩
  | 38 => ⟨S512x256, .f32⟩
  | 39 => ⟨S512x256, .f32⟩
  | 40 => ⟨S_, .f32⟩
  | 41 => ⟨S512x256, .f32⟩
  | 42 => ⟨S512x256, .f32⟩
  | 43 => ⟨S_, .f32⟩
  | 44 => ⟨S512x256, .f32⟩
  | 45 => ⟨S512x256, .f32⟩
  | 46 => ⟨S512x256, .f32⟩
  | 47 => ⟨S512x196, .f32⟩
  | 48 => ⟨S1x196, .f32⟩
  | 49 => ⟨S512x196, .f32⟩
  | 50 => ⟨S512x196, .f32⟩
  | 51 => ⟨S512x14x14, .f32⟩
  | 52 => ⟨S512x14x14, .f32⟩
  | 53 => ⟨S384x256, .bf16⟩
  | 54 => ⟨S256x196, .bf16⟩
  | 55 => ⟨S512x512x196, .bf16⟩
  | 56 => ⟨S_, .i32⟩
  | 57 => ⟨S130816, .i32⟩
  | 58 => ⟨S130816, .i1⟩
  | 59 => ⟨S_, .i32⟩
  | 60 => ⟨S130816, .i32⟩
  | 61 => ⟨S130816, .i32⟩
  | 62 => ⟨S130816, .i32⟩
  | 63 => ⟨S_, .i32⟩
  | 64 => ⟨S130816, .i32⟩
  | 65 => ⟨S130816, .i1⟩
  | 66 => ⟨S_, .i32⟩
  | 67 => ⟨S130816, .i32⟩
  | 68 => ⟨S130816, .i32⟩
  | 69 => ⟨S130816, .i32⟩
  | 70 => ⟨S130816x1, .i32⟩
  | 71 => ⟨S130816x1, .i32⟩
  | 72 => ⟨S130816x2, .i32⟩
  | 73 => ⟨S130816x196, .bf16⟩
  | 74 => ⟨S130816x196, .f32⟩
  | 75 => ⟨S130816x14x14, .f32⟩
  | 76 => ⟨S130816x14x14, .f32⟩
  | 77 => ⟨S_, .f32⟩
  | 78 => ⟨S512x14x512x14, .f32⟩
  | 79 => ⟨S_, .i32⟩
  | 80 => ⟨S512, .i32⟩
  | 81 => ⟨S512, .i1⟩
  | 82 => ⟨S_, .i32⟩
  | 83 => ⟨S512, .i32⟩
  | 84 => ⟨S512, .i32⟩
  | 85 => ⟨S512, .i32⟩
  | 86 => ⟨S_, .i32⟩
  | 87 => ⟨S512, .i32⟩
  | 88 => ⟨S512, .i1⟩
  | 89 => ⟨S_, .i32⟩
  | 90 => ⟨S512, .i32⟩
  | 91 => ⟨S512, .i32⟩
  | 92 => ⟨S512, .i32⟩
  | 93 => ⟨S512x1, .i32⟩
  | 94 => ⟨S512x1, .i32⟩
  | 95 => ⟨S512x2, .i32⟩
  | 96 => ⟨S512x14x512x14, .f32⟩
  | 97 => ⟨S_, .i32⟩
  | 98 => ⟨S130816, .i32⟩
  | 99 => ⟨S130816, .i1⟩
  | 100 => ⟨S_, .i32⟩
  | 101 => ⟨S130816, .i32⟩
  | 102 => ⟨S130816, .i32⟩
  | 103 => ⟨S130816, .i32⟩
  | 104 => ⟨S_, .i32⟩
  | 105 => ⟨S130816, .i32⟩
  | 106 => ⟨S130816, .i1⟩
  | 107 => ⟨S_, .i32⟩
  | 108 => ⟨S130816, .i32⟩
  | 109 => ⟨S130816, .i32⟩
  | 110 => ⟨S130816, .i32⟩
  | 111 => ⟨S130816x1, .i32⟩
  | 112 => ⟨S130816x1, .i32⟩
  | 113 => ⟨S130816x2, .i32⟩
  | 114 => ⟨S512x14x512x14, .f32⟩
  | 115 => ⟨S130816x14x14, .f32⟩
  | 116 => ⟨S_, .i32⟩
  | 117 => ⟨S130816, .i32⟩
  | 118 => ⟨S130816, .i1⟩
  | 119 => ⟨S_, .i32⟩
  | 120 => ⟨S130816, .i32⟩
  | 121 => ⟨S130816, .i32⟩
  | 122 => ⟨S130816, .i32⟩
  | 123 => ⟨S_, .i32⟩
  | 124 => ⟨S130816, .i32⟩
  | 125 => ⟨S130816, .i1⟩
  | 126 => ⟨S_, .i32⟩
  | 127 => ⟨S130816, .i32⟩
  | _ => ⟨S512x128, .f32⟩

abbrev hbmTy0_1 (i : Nat) : BufTy := match i % 128 with
  | 0 => ⟨S130816, .i32⟩
  | 1 => ⟨S130816, .i32⟩
  | 2 => ⟨S130816x1, .i32⟩
  | 3 => ⟨S130816x1, .i32⟩
  | 4 => ⟨S130816x2, .i32⟩
  | 5 => ⟨S512x14x512x14, .f32⟩
  | 6 => ⟨S7168x7168, .f32⟩
  | _ => ⟨S512x128, .f32⟩

abbrev hbmTy (i : Nat) : BufTy := match i / 128 with
  | 0 => hbmTy0_0 i
  | 1 => hbmTy0_1 i
  | _ => ⟨S512x128, .f32⟩

abbrev bufTy : (tb : Table) → Fin (tcTables nBuf tb) → BufTy
  | .hbm, ⟨i, _⟩ => hbmTy i
  | .local _ .vmem, ⟨0, _⟩ => ⟨S512x128, .f32⟩
  | .local _ .vmem, ⟨1, _⟩ => ⟨S64x64x128, .f32⟩
  | .local _ .vmem, ⟨2, _⟩ => ⟨S64x64x128, .f32⟩
  | .local _ .vmem, ⟨3, _⟩ => ⟨S384x256, .bf16⟩
  | .local _ .vmem, ⟨4, _⟩ => ⟨S256, .f32⟩
  | .local _ .vmem, ⟨5, _⟩ => ⟨S256x196, .bf16⟩
  | .local _ .vmem, ⟨6, _⟩ => ⟨S196, .f32⟩
  | .local _ .vmem, ⟨7, _⟩ => ⟨S64x64x196, .bf16⟩
  | .local _ .vmem, ⟨8, _⟩ => ⟨S64x64x196, .bf16⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c_1 : Ref sig .tc := ⟨.hbm, 22, rfl⟩
abbrev main_v6 : Ref sig .tc := ⟨.hbm, 23, rfl⟩
abbrev main_v7 : Ref sig .tc := ⟨.hbm, 24, rfl⟩
abbrev main_c_2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_c_3 : Ref sig .tc := ⟨.hbm, 56, rfl⟩
abbrev main_v30 : Ref sig .tc := ⟨.hbm, 57, rfl⟩
abbrev main_v31 : Ref sig .tc := ⟨.hbm, 58, rfl⟩
abbrev main_c_4 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_c_5 : Ref sig .tc := ⟨.hbm, 63, rfl⟩
abbrev main_v35 : Ref sig .tc := ⟨.hbm, 64, rfl⟩
abbrev main_v36 : Ref sig .tc := ⟨.hbm, 65, rfl⟩
abbrev main_c_6 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst : Ref sig .tc := ⟨.hbm, 77, rfl⟩
abbrev main_v47 : Ref sig .tc := ⟨.hbm, 78, rfl⟩
abbrev main_c_7 : Ref sig .tc := ⟨.hbm, 79, rfl⟩
abbrev main_v48 : Ref sig .tc := ⟨.hbm, 80, rfl⟩
abbrev main_v49 : Ref sig .tc := ⟨.hbm, 81, rfl⟩
abbrev main_c_8 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_c_9 : Ref sig .tc := ⟨.hbm, 86, rfl⟩
abbrev main_v53 : Ref sig .tc := ⟨.hbm, 87, rfl⟩
abbrev main_v54 : Ref sig .tc := ⟨.hbm, 88, rfl⟩
abbrev main_c_10 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_c_11 : Ref sig .tc := ⟨.hbm, 97, rfl⟩
abbrev main_v62 : Ref sig .tc := ⟨.hbm, 98, rfl⟩
abbrev main_v63 : Ref sig .tc := ⟨.hbm, 99, rfl⟩
abbrev main_c_12 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_c_13 : Ref sig .tc := ⟨.hbm, 104, rfl⟩
abbrev main_v67 : Ref sig .tc := ⟨.hbm, 105, rfl⟩
abbrev main_v68 : Ref sig .tc := ⟨.hbm, 106, rfl⟩
abbrev main_c_14 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_c_15 : Ref sig .tc := ⟨.hbm, 116, rfl⟩
abbrev main_v77 : Ref sig .tc := ⟨.hbm, 117, rfl⟩
abbrev main_v78 : Ref sig .tc := ⟨.hbm, 118, rfl⟩
abbrev main_c_16 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_c_17 : Ref sig .tc := ⟨.hbm, 123, rfl⟩
abbrev main_v82 : Ref sig .tc := ⟨.hbm, 124, rfl⟩
abbrev main_v83 : Ref sig .tc := ⟨.hbm, 125, rfl⟩
abbrev main_c_18 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c64_i32 : BitVec 32 := 64#32
  let v0 : BitVec 32 := Scalar.muli arg0 c64_i32
  v0
def k0_mult2 (i : grid0.Coords) : BitVec 32 :=
  let arg1 : BitVec 32 := BitVec.ofNat 32 (i 1).val
  let c64_i32_0 : BitVec 32 := 64#32
  let v2 : BitVec 32 := Scalar.muli arg1 c64_i32_0
  v2
def k0_off1 (i : grid0.Coords) : Fin 2 → Nat :=
  let arg0 : BitVec 32 := BitVec.ofNat 32 (i 0).val
  let c64_i32 : BitVec 32 := 64#32
  let v0 : BitVec 32 := Scalar.muli arg0 c64_i32
  let v1 : BitVec 32 := v0
  let v4 : Index := Scalar.indexCast v1
  let c0 : Index := 0#32
  ![v4.toNat, 0]
def k0_off2 (i : grid0.Coords) : Fin 2 → Nat :=
  let arg1 : BitVec 32 := BitVec.ofNat 32 (i 1).val
  let c64_i32_0 : BitVec 32 := 64#32
  let v2 : BitVec 32 := Scalar.muli arg1 c64_i32_0
  let v3 : BitVec 32 := v2
  let v6 : Index := Scalar.indexCast v3
  let c0_1 : Index := 0#32
  ![v6.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S64x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S384x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x196 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S196 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S64x64x196 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bcast_S_S512 : S_.BroadcastsInDim S512 (![] : Fin 0 → Fin S512.rank)
  bcast_S512_S512x1_0 : S512.BroadcastsInDim S512x1 (![0] : Fin 1 → Fin S512x1.rank)
  concatenates_S512x1_S512x1_S512x2_d1 : Shape.Concatenates [S512x1, S512x1] S512x2 1
  concatenates_S512x128_S512x128_S512x256_d1 : Shape.Concatenates [S512x128, S512x128] S512x256 1
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  bcast_S196_S1x196_1 : S196.BroadcastsInDim S1x196 (![1] : Fin 1 → Fin S1x196.rank)
  bcast_S1x196_S512x196_0_1 : S1x196.BroadcastsInDim S512x196 (![0, 1] : Fin 2 → Fin S512x196.rank)
  shapeCasts_S512x196_S512x14x14 : S512x196.ShapeCasts S512x14x14
  bitsLt_bf16_f32 : FTy.bits .bf16 < FTy.bits .f32
  h_S64x128 : 0 < S64x128.numel
  inb_S64x64x128_S64x64x128_0_0_0 : ∀ a, (![0, 0, 0] : Fin 3 → Nat) a + S64x64x128.size a ≤ S64x64x128.size a
  h_S64x64x128 : 0 < S64x64x128.numel
  shapeCasts_S64x128_S64x1x128 : S64x128.ShapeCasts S64x1x128
  shapeCasts_S64x1x128_S64x1x128 : S64x1x128.ShapeCasts S64x1x128
  broadcasts_S64x1x128_S64x64x128 : S64x1x128.Broadcasts S64x64x128
  shapeCasts_S64x128_S1x64x128 : S64x128.ShapeCasts S1x64x128
  shapeCasts_S1x64x128_S1x64x128 : S1x64x128.ShapeCasts S1x64x128
  broadcasts_S1x64x128_S64x64x128 : S1x64x128.Broadcasts S64x64x128
  concatenates_S64x64x128_S64x64x128_S64x64x128_S64x64x384_d2 : Shape.Concatenates [S64x64x128, S64x64x128, S64x64x128] S64x64x384 2
  shapeCasts_S64x64x384_S4096x384 : S64x64x384.ShapeCasts S4096x384
  inb_S384x256_S384x256_0_0 : ∀ a, (![0, 0] : Fin 2 → Nat) a + S384x256.size a ≤ S384x256.size a
  h_S384x256 : 0 < S384x256.numel
  shapeCasts_S384x256_S384x256 : S384x256.ShapeCasts S384x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S256x196_S256x196_0_0 : ∀ a, (![0, 0] : Fin 2 → Nat) a + S256x196.size a ≤ S256x196.size a
  h_S256x196 : 0 < S256x196.numel
  shapeCasts_S256x196_S256x196 : S256x196.ShapeCasts S256x196
  inb_S196_S196_0 : ∀ a, (![0] : Fin 1 → Nat) a + S196.size a ≤ S196.size a
  h_S196 : 0 < S196.numel
  shapeCasts_S196_S1x196 : S196.ShapeCasts S1x196
  broadcasts_S1x196_S4096x196 : S1x196.Broadcasts S4096x196
  shapeCasts_S4096x196_S64x64x196 : S4096x196.ShapeCasts S64x64x196
  inb_S64x64x196_S64x64x196_0_0_0 : ∀ a, (![0, 0, 0] : Fin 3 → Nat) a + S64x64x196.size a ≤ S64x64x196.size a
  h_S64x64x196 : 0 < S64x64x196.numel
  packedbf16_S64x64x196_S64x64x196_0_0_0 : (Rect.unit (s := S64x64x196) ![0, 0, 0] S64x64x196.size inb_S64x64x196_S64x64x196_0_0_0).PackedRows (EltTy.packing .bf16)
  bcast_S_S130816 : S_.BroadcastsInDim S130816 (![] : Fin 0 → Fin S130816.rank)
  bcast_S130816_S130816x1_0 : S130816.BroadcastsInDim S130816x1 (![0] : Fin 1 → Fin S130816x1.rank)
  concatenates_S130816x1_S130816x1_S130816x2_d1 : Shape.Concatenates [S130816x1, S130816x1] S130816x2 1
  shapeCasts_S130816x196_S130816x14x14 : S130816x196.ShapeCasts S130816x14x14
  bcast_S_S512x14x512x14 : S_.BroadcastsInDim S512x14x512x14 (![] : Fin 0 → Fin S512x14x512x14.rank)
  transposes_S130816x14x14_S130816x14x14_0_2_1 : S130816x14x14.Transposes [0, 2, 1] S130816x14x14
  shapeCasts_S512x14x512x14_S7168x7168 : S512x14x512x14.ShapeCasts S7168x7168
  gather_S512x512x128_S512x2_S512x128_1_01_n_n_01_1_11128_wf : GatherDims.WF S512x512x128 S512x2 S512x128 [1] [0, 1] [] [0, 1] [] 1 ![1, 1, 128]
  dot_S512x256_S256x256_S512x256_1_0_0_1_n_n_wf : DotDims.WF S512x256 S256x256 S512x256 [1] [0] [0] [1] [] []
  dot_S512x256_S256x196_S512x196_1_0_0_1_n_n_wf : DotDims.WF S512x256 S256x196 S512x196 [1] [0] [0] [1] [] []
  dot_S4096x384_S384x256_S4096x256_1_0_0_1_n_n_wf : DotDims.WF S4096x384 S384x256 S4096x256 [1] [0] [0] [1] [] []
  dot_S4096x256_S256x196_S4096x196_1_0_0_1_n_n_wf : DotDims.WF S4096x256 S256x196 S4096x196 [1] [0] [0] [1] [] []
  gather_S512x512x196_S130816x2_S130816x196_1_01_n_n_01_1_11196_wf : GatherDims.WF S512x512x196 S130816x2 S130816x196 [1] [0, 1] [] [0, 1] [] 1 ![1, 1, 196]
  scatter_S512x14x512x14_S512x2_S512x14x14_12_02_02_1_wf : ScatterDims.WF S512x14x512x14 S512x2 S512x14x14 [1, 2] [0, 2] [0, 2] 1
  scatter_S512x14x512x14_S130816x2_S130816x14x14_12_02_02_1_wf : ScatterDims.WF S512x14x512x14 S130816x2 S130816x14x14 [1, 2] [0, 2] [0, 2] 1
  hrank0 : 0 < grid0.rank
  k0_mult1_dvd : ∀ i : grid0.Coords, 64 ∣ (k0_mult1 i).toNat
  k0_mult2_dvd : ∀ i : grid0.Coords, 64 ∣ (k0_mult2 i).toNat
  k0_off1_inb : ∀ i : grid0.Coords, ∀ a, (k0_off1 i) a + S64x128.size a ≤ S512x128.size a
  k0_off2_inb : ∀ i : grid0.Coords, ∀ a, (k0_off2 i) a + S64x128.size a ≤ S512x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S512x128.size a
  hwx0_0 : ∀ i : grid0.Coords, EltTy.bits .f32 = 32 ∨ (Rect.block (s := S512x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64x128.size a ≤ S512x512x128.size a
  hwx0_1 : ∀ i : grid0.Coords, EltTy.bits .f32 = 32 ∨ (Rect.block (s := S512x512x128) S64x64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x256.size a ≤ S384x256.size a
  hwx0_2 : ∀ i : grid0.Coords, EltTy.bits .bf16 = 32 ∨ (Rect.block (s := S384x256) S384x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x196.size a ≤ S256x196.size a
  hwx0_4 : ∀ i : grid0.Coords, EltTy.bits .bf16 = 32 ∨ (Rect.block (s := S256x196) S256x196.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S196.size a ≤ S196.size a
  hwx0_5 : ∀ i : grid0.Coords, EltTy.bits .f32 = 32 ∨ (Rect.block (s := S196) S196.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x64x196.size a ≤ S512x512x196.size a
  hwx0_6 : ∀ i : grid0.Coords, EltTy.bits .bf16 = 32 ∨ (Rect.block (s := S512x512x196) S64x64x196.size (cc0_transform_6 i) (hinb0_6 i)).WholeWords (EltTy.packing .bf16)

variable [Facts₀]

def gather_S512x512x128_S512x2_S512x128_1_01_n_n_01_1_11128 : GatherDims S512x512x128 S512x2 S512x128 where
  offsetDims := [1]
  collapsedSliceDims := [0, 1]
  operandBatchingDims := []
  startIndicesBatchingDims := []
  startIndexMap := [0, 1]
  indexVectorDim := 1
  sliceSizes := ![1, 1, 128]
  wf := gather_S512x512x128_S512x2_S512x128_1_01_n_n_01_1_11128_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x196_S512x196_1_0_0_1_n_n : DotDims S512x256 S256x196 S512x196 where
  lhsContracting := [1]
  rhsContracting := [0]
  lhsNonContracting := [0]
  rhsNonContracting := [1]
  lhsBatch := []
  rhsBatch := []
  wf := dot_S512x256_S256x196_S512x196_1_0_0_1_n_n_wf
def dot_S4096x384_S384x256_S4096x256_1_0_0_1_n_n : DotDims S4096x384 S384x256 S4096x256 where
  lhsContracting := [1]
  rhsContracting := [0]
  lhsNonContracting := [0]
  rhsNonContracting := [1]
  lhsBatch := []
  rhsBatch := []
  wf := dot_S4096x384_S384x256_S4096x256_1_0_0_1_n_n_wf
def dot_S4096x256_S256x196_S4096x196_1_0_0_1_n_n : DotDims S4096x256 S256x196 S4096x196 where
  lhsContracting := [1]
  rhsContracting := [0]
  lhsNonContracting := [0]
  rhsNonContracting := [1]
  lhsBatch := []
  rhsBatch := []
  wf := dot_S4096x256_S256x196_S4096x196_1_0_0_1_n_n_wf
def gather_S512x512x196_S130816x2_S130816x196_1_01_n_n_01_1_11196 : GatherDims S512x512x196 S130816x2 S130816x196 where
  offsetDims := [1]
  collapsedSliceDims := [0, 1]
  operandBatchingDims := []
  startIndicesBatchingDims := []
  startIndexMap := [0, 1]
  indexVectorDim := 1
  sliceSizes := ![1, 1, 196]
  wf := gather_S512x512x196_S130816x2_S130816x196_1_01_n_n_01_1_11196_wf
def scatter_S512x14x512x14_S512x2_S512x14x14_12_02_02_1 : ScatterDims S512x14x512x14 S512x2 S512x14x14 where
  updateWindowDims := [1, 2]
  insertedWindowDims := [0, 2]
  scatterDimsToOperandDims := [0, 2]
  indexVectorDim := 1
  wf := scatter_S512x14x512x14_S512x2_S512x14x14_12_02_02_1_wf
def scatter_S512x14x512x14_S130816x2_S130816x14x14_12_02_02_1 : ScatterDims S512x14x512x14 S130816x2 S130816x14x14 where
  updateWindowDims := [1, 2]
  insertedWindowDims := [0, 2]
  scatterDimsToOperandDims := [0, 2]
  indexVectorDim := 1
  wf := scatter_S512x14x512x14_S130816x2_S130816x14x14_12_02_02_1_wf

abbrev win0_0 : Pipeline.Window sig grid0 :=
  Pipeline.Window.ofSpec (Memref.whole main_arg0) S512x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S384x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S256x196.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg11) S196.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S64x64x196.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S512x128 : Shape := ⟨2, ![512, 128]⟩
abbrev S512x512x128 : Shape := ⟨3, ![512, 512, 128]⟩
abbrev S512x14x14 : Shape := ⟨3, ![512, 14, 14]⟩
abbrev S130816x14x14 : Shape := ⟨3, ![130816, 14, 14]⟩
abbrev S256x256 : Shape := ⟨2, ![256, 256]⟩
abbrev S256 : Shape := ⟨1, ![256]⟩
abbrev S256x196 : Shape := ⟨2, ![256, 196]⟩
abbrev S196 : Shape := ⟨1, ![196]⟩
abbrev S384x256 : Shape := ⟨2, ![384, 256]⟩
abbrev S130816 : Shape := ⟨1, ![130816]⟩
abbrev S512 : Shape := ⟨1, ![512]⟩
abbrev S_ : Shape := ⟨0, ![]⟩
abbrev S512x1 : Shape := ⟨2, ![512, 1]⟩
abbrev S512x2 : Shape := ⟨2, ![512, 2]⟩
abbrev S512x256 : Shape := ⟨2, ![512, 256]⟩
abbrev S1x256 : Shape := ⟨2, ![1, 256]⟩
abbrev S512x196 : Shape := ⟨2, ![512, 196]⟩
abbrev S1x196 : Shape := ⟨2, ![1, 196]⟩
abbrev S130816x1 : Shape := ⟨2, ![130816, 1]⟩
abbrev S130816x128 : Shape := ⟨2, ![130816, 128]⟩
abbrev S130816x2 : Shape := ⟨2, ![130816, 2]⟩
abbrev S130816x384 : Shape := ⟨2, ![130816, 384]⟩
abbrev S130816x256 : Shape := ⟨2, ![130816, 256]⟩
abbrev S130816x196 : Shape := ⟨2, ![130816, 196]⟩
abbrev S512x14x512x14 : Shape := ⟨4, ![512, 14, 512, 14]⟩
abbrev S7168x7168 : Shape := ⟨2, ![7168, 7168]⟩

abbrev nBuf : Space → Nat
  | .hbm => 167
  | .vmem => 0
  | .smem => 0
  | _ => 0

abbrev hbmTy0_0 (i : Nat) : BufTy := match i % 128 with
  | 0 => ⟨S512x128, .f32⟩
  | 1 => ⟨S512x512x128, .f32⟩
  | 2 => ⟨S512x14x14, .f32⟩
  | 3 => ⟨S130816x14x14, .f32⟩
  | 4 => ⟨S256x256, .f32⟩
  | 5 => ⟨S256, .f32⟩
  | 6 => ⟨S256x196, .f32⟩
  | 7 => ⟨S196, .f32⟩
  | 8 => ⟨S384x256, .f32⟩
  | 9 => ⟨S256, .f32⟩
  | 10 => ⟨S256x196, .f32⟩
  | 11 => ⟨S196, .f32⟩
  | 12 => ⟨S130816, .i32⟩
  | 13 => ⟨S130816, .i32⟩
  | 14 => ⟨S512, .i32⟩
  | 15 => ⟨S_, .i32⟩
  | 16 => ⟨S512, .i32⟩
  | 17 => ⟨S512, .i1⟩
  | 18 => ⟨S_, .i32⟩
  | 19 => ⟨S512, .i32⟩
  | 20 => ⟨S512, .i32⟩
  | 21 => ⟨S512, .i32⟩
  | 22 => ⟨S_, .i32⟩
  | 23 => ⟨S512, .i32⟩
  | 24 => ⟨S512, .i1⟩
  | 25 => ⟨S_, .i32⟩
  | 26 => ⟨S512, .i32⟩
  | 27 => ⟨S512, .i32⟩
  | 28 => ⟨S512, .i32⟩
  | 29 => ⟨S512x1, .i32⟩
  | 30 => ⟨S512x1, .i32⟩
  | 31 => ⟨S512x2, .i32⟩
  | 32 => ⟨S512x128, .f32⟩
  | 33 => ⟨S512x256, .f32⟩
  | 34 => ⟨S512x256, .f32⟩
  | 35 => ⟨S1x256, .f32⟩
  | 36 => ⟨S512x256, .f32⟩
  | 37 => ⟨S512x256, .f32⟩
  | 38 => ⟨S512x256, .f32⟩
  | 39 => ⟨S512x256, .f32⟩
  | 40 => ⟨S_, .f32⟩
  | 41 => ⟨S512x256, .f32⟩
  | 42 => ⟨S512x256, .f32⟩
  | 43 => ⟨S_, .f32⟩
  | 44 => ⟨S512x256, .f32⟩
  | 45 => ⟨S512x256, .f32⟩
  | 46 => ⟨S512x256, .f32⟩
  | 47 => ⟨S512x196, .f32⟩
  | 48 => ⟨S1x196, .f32⟩
  | 49 => ⟨S512x196, .f32⟩
  | 50 => ⟨S512x196, .f32⟩
  | 51 => ⟨S512x14x14, .f32⟩
  | 52 => ⟨S512x14x14, .f32⟩
  | 53 => ⟨S_, .i32⟩
  | 54 => ⟨S130816, .i32⟩
  | 55 => ⟨S130816, .i1⟩
  | 56 => ⟨S_, .i32⟩
  | 57 => ⟨S130816, .i32⟩
  | 58 => ⟨S130816, .i32⟩
  | 59 => ⟨S130816, .i32⟩
  | 60 => ⟨S130816x1, .i32⟩
  | 61 => ⟨S130816x128, .f32⟩
  | 62 => ⟨S_, .i32⟩
  | 63 => ⟨S130816, .i32⟩
  | 64 => ⟨S130816, .i1⟩
  | 65 => ⟨S_, .i32⟩
  | 66 => ⟨S130816, .i32⟩
  | 67 => ⟨S130816, .i32⟩
  | 68 => ⟨S130816, .i32⟩
  | 69 => ⟨S130816x1, .i32⟩
  | 70 => ⟨S130816x128, .f32⟩
  | 71 => ⟨S_, .i32⟩
  | 72 => ⟨S130816, .i32⟩
  | 73 => ⟨S130816, .i1⟩
  | 74 => ⟨S_, .i32⟩
  | 75 => ⟨S130816, .i32⟩
  | 76 => ⟨S130816, .i32⟩
  | 77 => ⟨S130816, .i32⟩
  | 78 => ⟨S_, .i32⟩
  | 79 => ⟨S130816, .i32⟩
  | 80 => ⟨S130816, .i1⟩
  | 81 => ⟨S_, .i32⟩
  | 82 => ⟨S130816, .i32⟩
  | 83 => ⟨S130816, .i32⟩
  | 84 => ⟨S130816, .i32⟩
  | 85 => ⟨S130816x1, .i32⟩
  | 86 => ⟨S130816x1, .i32⟩
  | 87 => ⟨S130816x2, .i32⟩
  | 88 => ⟨S130816x128, .f32⟩
  | 89 => ⟨S130816x384, .f32⟩
  | 90 => ⟨S130816x256, .f32⟩
  | 91 => ⟨S1x256, .f32⟩
  | 92 => ⟨S130816x256, .f32⟩
  | 93 => ⟨S130816x256, .f32⟩
  | 94 => ⟨S130816x256, .f32⟩
  | 95 => ⟨S130816x256, .f32⟩
  | 96 => ⟨S_, .f32⟩
  | 97 => ⟨S130816x256, .f32⟩
  | 98 => ⟨S130816x256, .f32⟩
  | 99 => ⟨S_, .f32⟩
  | 100 => ⟨S130816x256, .f32⟩
  | 101 => ⟨S130816x256, .f32⟩
  | 102 => ⟨S130816x256, .f32⟩
  | 103 => ⟨S130816x196, .f32⟩
  | 104 => ⟨S1x196, .f32⟩
  | 105 => ⟨S130816x196, .f32⟩
  | 106 => ⟨S130816x196, .f32⟩
  | 107 => ⟨S130816x14x14, .f32⟩
  | 108 => ⟨S130816x14x14, .f32⟩
  | 109 => ⟨S_, .f32⟩
  | 110 => ⟨S512x14x512x14, .f32⟩
  | 111 => ⟨S_, .i32⟩
  | 112 => ⟨S512, .i32⟩
  | 113 => ⟨S512, .i1⟩
  | 114 => ⟨S_, .i32⟩
  | 115 => ⟨S512, .i32⟩
  | 116 => ⟨S512, .i32⟩
  | 117 => ⟨S512, .i32⟩
  | 118 => ⟨S_, .i32⟩
  | 119 => ⟨S512, .i32⟩
  | 120 => ⟨S512, .i1⟩
  | 121 => ⟨S_, .i32⟩
  | 122 => ⟨S512, .i32⟩
  | 123 => ⟨S512, .i32⟩
  | 124 => ⟨S512, .i32⟩
  | 125 => ⟨S512x1, .i32⟩
  | 126 => ⟨S512x1, .i32⟩
  | 127 => ⟨S512x2, .i32⟩
  | _ => ⟨S512x128, .f32⟩

abbrev hbmTy0_1 (i : Nat) : BufTy := match i % 128 with
  | 0 => ⟨S512x14x512x14, .f32⟩
  | 1 => ⟨S_, .i32⟩
  | 2 => ⟨S130816, .i32⟩
  | 3 => ⟨S130816, .i1⟩
  | 4 => ⟨S_, .i32⟩
  | 5 => ⟨S130816, .i32⟩
  | 6 => ⟨S130816, .i32⟩
  | 7 => ⟨S130816, .i32⟩
  | 8 => ⟨S_, .i32⟩
  | 9 => ⟨S130816, .i32⟩
  | 10 => ⟨S130816, .i1⟩
  | 11 => ⟨S_, .i32⟩
  | 12 => ⟨S130816, .i32⟩
  | 13 => ⟨S130816, .i32⟩
  | 14 => ⟨S130816, .i32⟩
  | 15 => ⟨S130816x1, .i32⟩
  | 16 => ⟨S130816x1, .i32⟩
  | 17 => ⟨S130816x2, .i32⟩
  | 18 => ⟨S512x14x512x14, .f32⟩
  | 19 => ⟨S130816x14x14, .f32⟩
  | 20 => ⟨S_, .i32⟩
  | 21 => ⟨S130816, .i32⟩
  | 22 => ⟨S130816, .i1⟩
  | 23 => ⟨S_, .i32⟩
  | 24 => ⟨S130816, .i32⟩
  | 25 => ⟨S130816, .i32⟩
  | 26 => ⟨S130816, .i32⟩
  | 27 => ⟨S_, .i32⟩
  | 28 => ⟨S130816, .i32⟩
  | 29 => ⟨S130816, .i1⟩
  | 30 => ⟨S_, .i32⟩
  | 31 => ⟨S130816, .i32⟩
  | 32 => ⟨S130816, .i32⟩
  | 33 => ⟨S130816, .i32⟩
  | 34 => ⟨S130816x1, .i32⟩
  | 35 => ⟨S130816x1, .i32⟩
  | 36 => ⟨S130816x2, .i32⟩
  | 37 => ⟨S512x14x512x14, .f32⟩
  | 38 => ⟨S7168x7168, .f32⟩
  | _ => ⟨S512x128, .f32⟩

abbrev hbmTy (i : Nat) : BufTy := match i / 128 with
  | 0 => hbmTy0_0 i
  | 1 => hbmTy0_1 i
  | _ => ⟨S512x128, .f32⟩

abbrev bufTy : (tb : Table) → Fin (tcTables nBuf tb) → BufTy
  | .hbm, ⟨i, _⟩ => hbmTy i
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c_1 : Ref sig .tc := ⟨.hbm, 22, rfl⟩
abbrev main_v6 : Ref sig .tc := ⟨.hbm, 23, rfl⟩
abbrev main_v7 : Ref sig .tc := ⟨.hbm, 24, rfl⟩
abbrev main_c_2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_3 : Ref sig .tc := ⟨.hbm, 53, rfl⟩
abbrev main_v27 : Ref sig .tc := ⟨.hbm, 54, rfl⟩
abbrev main_v28 : Ref sig .tc := ⟨.hbm, 55, rfl⟩
abbrev main_c_4 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c_5 : Ref sig .tc := ⟨.hbm, 62, rfl⟩
abbrev main_v34 : Ref sig .tc := ⟨.hbm, 63, rfl⟩
abbrev main_v35 : Ref sig .tc := ⟨.hbm, 64, rfl⟩
abbrev main_c_6 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_c_7 : Ref sig .tc := ⟨.hbm, 71, rfl⟩
abbrev main_v41 : Ref sig .tc := ⟨.hbm, 72, rfl⟩
abbrev main_v42 : Ref sig .tc := ⟨.hbm, 73, rfl⟩
abbrev main_c_8 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_c_9 : Ref sig .tc := ⟨.hbm, 78, rfl⟩
abbrev main_v46 : Ref sig .tc := ⟨.hbm, 79, rfl⟩
abbrev main_v47 : Ref sig .tc := ⟨.hbm, 80, rfl⟩
abbrev main_c_10 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_call1_v0 : Ref sig .tc := ⟨.hbm, 94, rfl⟩
abbrev main_call1_v1 : Ref sig .tc := ⟨.hbm, 95, rfl⟩
abbrev main_call1_cst : Ref sig .tc := ⟨.hbm, 96, rfl⟩
abbrev main_call1_v2 : Ref sig .tc := ⟨.hbm, 97, rfl⟩
abbrev main_call1_v3 : Ref sig .tc := ⟨.hbm, 98, rfl⟩
abbrev main_call1_cst_0 : Ref sig .tc := ⟨.hbm, 99, rfl⟩
abbrev main_call1_v4 : Ref sig .tc := ⟨.hbm, 100, rfl⟩
abbrev main_call1_v5 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst : Ref sig .tc := ⟨.hbm, 109, rfl⟩
abbrev main_v67 : Ref sig .tc := ⟨.hbm, 110, rfl⟩
abbrev main_c_11 : Ref sig .tc := ⟨.hbm, 111, rfl⟩
abbrev main_v68 : Ref sig .tc := ⟨.hbm, 112, rfl⟩
abbrev main_v69 : Ref sig .tc := ⟨.hbm, 113, rfl⟩
abbrev main_c_12 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_c_13 : Ref sig .tc := ⟨.hbm, 118, rfl⟩
abbrev main_v73 : Ref sig .tc := ⟨.hbm, 119, rfl⟩
abbrev main_v74 : Ref sig .tc := ⟨.hbm, 120, rfl⟩
abbrev main_c_14 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_c_15 : Ref sig .tc := ⟨.hbm, 129, rfl⟩
abbrev main_v82 : Ref sig .tc := ⟨.hbm, 130, rfl⟩
abbrev main_v83 : Ref sig .tc := ⟨.hbm, 131, rfl⟩
abbrev main_c_16 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_c_17 : Ref sig .tc := ⟨.hbm, 136, rfl⟩
abbrev main_v87 : Ref sig .tc := ⟨.hbm, 137, rfl⟩
abbrev main_v88 : Ref sig .tc := ⟨.hbm, 138, rfl⟩
abbrev main_c_18 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_c_19 : Ref sig .tc := ⟨.hbm, 148, rfl⟩
abbrev main_v97 : Ref sig .tc := ⟨.hbm, 149, rfl⟩
abbrev main_v98 : Ref sig .tc := ⟨.hbm, 150, rfl⟩
abbrev main_c_20 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_c_21 : Ref sig .tc := ⟨.hbm, 155, rfl⟩
abbrev main_v102 : Ref sig .tc := ⟨.hbm, 156, rfl⟩
abbrev main_v103 : Ref sig .tc := ⟨.hbm, 157, rfl⟩
abbrev main_c_22 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S512x1_0 : S512.BroadcastsInDim S512x1 (![0] : Fin 1 → Fin S512x1.rank)
  concatenates_S512x1_S512x1_S512x2_d1 : Shape.Concatenates [S512x1, S512x1] S512x2 1
  concatenates_S512x128_S512x128_S512x256_d1 : Shape.Concatenates [S512x128, S512x128] S512x256 1
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  bcast_S196_S1x196_1 : S196.BroadcastsInDim S1x196 (![1] : Fin 1 → Fin S1x196.rank)
  bcast_S1x196_S512x196_0_1 : S1x196.BroadcastsInDim S512x196 (![0, 1] : Fin 2 → Fin S512x196.rank)
  shapeCasts_S512x196_S512x14x14 : S512x196.ShapeCasts S512x14x14
  bcast_S_S130816 : S_.BroadcastsInDim S130816 (![] : Fin 0 → Fin S130816.rank)
  bcast_S130816_S130816x1_0 : S130816.BroadcastsInDim S130816x1 (![0] : Fin 1 → Fin S130816x1.rank)
  concatenates_S130816x1_S130816x1_S130816x2_d1 : Shape.Concatenates [S130816x1, S130816x1] S130816x2 1
  concatenates_S130816x128_S130816x128_S130816x128_S130816x384_d1 : Shape.Concatenates [S130816x128, S130816x128, S130816x128] S130816x384 1
  bcast_S1x256_S130816x256_0_1 : S1x256.BroadcastsInDim S130816x256 (![0, 1] : Fin 2 → Fin S130816x256.rank)
  bcast_S_S130816x256 : S_.BroadcastsInDim S130816x256 (![] : Fin 0 → Fin S130816x256.rank)
  bcast_S1x196_S130816x196_0_1 : S1x196.BroadcastsInDim S130816x196 (![0, 1] : Fin 2 → Fin S130816x196.rank)
  shapeCasts_S130816x196_S130816x14x14 : S130816x196.ShapeCasts S130816x14x14
  bcast_S_S512x14x512x14 : S_.BroadcastsInDim S512x14x512x14 (![] : Fin 0 → Fin S512x14x512x14.rank)
  transposes_S130816x14x14_S130816x14x14_0_2_1 : S130816x14x14.Transposes [0, 2, 1] S130816x14x14
  shapeCasts_S512x14x512x14_S7168x7168 : S512x14x512x14.ShapeCasts S7168x7168
  gather_S512x512x128_S512x2_S512x128_1_01_n_n_01_1_11128_wf : GatherDims.WF S512x512x128 S512x2 S512x128 [1] [0, 1] [] [0, 1] [] 1 ![1, 1, 128]
  dot_S512x256_S256x256_S512x256_1_0_0_1_n_n_wf : DotDims.WF S512x256 S256x256 S512x256 [1] [0] [0] [1] [] []
  dot_S512x256_S256x196_S512x196_1_0_0_1_n_n_wf : DotDims.WF S512x256 S256x196 S512x196 [1] [0] [0] [1] [] []
  gather_S512x128_S130816x1_S130816x128_1_0_n_n_0_1_1128_wf : GatherDims.WF S512x128 S130816x1 S130816x128 [1] [0] [] [0] [] 1 ![1, 128]
  gather_S512x512x128_S130816x2_S130816x128_1_01_n_n_01_1_11128_wf : GatherDims.WF S512x512x128 S130816x2 S130816x128 [1] [0, 1] [] [0, 1] [] 1 ![1, 1, 128]
  dot_S130816x384_S384x256_S130816x256_1_0_0_1_n_n_wf : DotDims.WF S130816x384 S384x256 S130816x256 [1] [0] [0] [1] [] []
  dot_S130816x256_S256x196_S130816x196_1_0_0_1_n_n_wf : DotDims.WF S130816x256 S256x196 S130816x196 [1] [0] [0] [1] [] []
  scatter_S512x14x512x14_S512x2_S512x14x14_12_02_02_1_wf : ScatterDims.WF S512x14x512x14 S512x2 S512x14x14 [1, 2] [0, 2] [0, 2] 1
  scatter_S512x14x512x14_S130816x2_S130816x14x14_12_02_02_1_wf : ScatterDims.WF S512x14x512x14 S130816x2 S130816x14x14 [1, 2] [0, 2] [0, 2] 1

variable [Facts₀]

def gather_S512x512x128_S512x2_S512x128_1_01_n_n_01_1_11128 : GatherDims S512x512x128 S512x2 S512x128 where
  offsetDims := [1]
  collapsedSliceDims := [0, 1]
  operandBatchingDims := []
  startIndicesBatchingDims := []
  startIndexMap := [0, 1]
  indexVectorDim := 1
  sliceSizes := ![1, 1, 128]
  wf := gather_S512x512x128_S512x2_S512x128_1_01_n_n_01_1_11128_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x196_S512x196_1_0_0_1_n_n : DotDims S512x256 S256x196 S512x196 where
  lhsContracting := [1]
  rhsContracting := [0]
  lhsNonContracting := [0]
  rhsNonContracting := [1]
  lhsBatch := []
  rhsBatch := []
  wf := dot_S512x256_S256x196_S512x196_1_0_0_1_n_n_wf
def gather_S512x128_S130816x1_S130816x128_1_0_n_n_0_1_1128 : GatherDims S512x128 S130816x1 S130816x128 where
  offsetDims := [1]
  collapsedSliceDims := [0]
  operandBatchingDims := []
  startIndicesBatchingDims := []
  startIndexMap := [0]
  indexVectorDim := 1
  sliceSizes := ![1, 128]
  wf := gather_S512x128_S130816x1_S130816x128_1_0_n_n_0_1_1128_wf
def gather_S512x512x128_S130816x2_S130816x128_1_01_n_n_01_1_11128 : GatherDims S512x512x128 S130816x2 S130816x128 where
  offsetDims := [1]
  collapsedSliceDims := [0, 1]
  operandBatchingDims := []
  startIndicesBatchingDims := []
  startIndexMap := [0, 1]
  indexVectorDim := 1
  sliceSizes := ![1, 1, 128]
  wf := gather_S512x512x128_S130816x2_S130816x128_1_01_n_n_01_1_11128_wf
def dot_S130816x384_S384x256_S130816x256_1_0_0_1_n_n : DotDims S130816x384 S384x256 S130816x256 where
  lhsContracting := [1]
  rhsContracting := [0]
  lhsNonContracting := [0]
  rhsNonContracting := [1]
  lhsBatch := []
  rhsBatch := []
  wf := dot_S130816x384_S384x256_S130816x256_1_0_0_1_n_n_wf
def dot_S130816x256_S256x196_S130816x196_1_0_0_1_n_n : DotDims S130816x256 S256x196 S130816x196 where
  lhsContracting := [1]
  rhsContracting := [0]
  lhsNonContracting := [0]
  rhsNonContracting := [1]
  lhsBatch := []
  rhsBatch := []
  wf := dot_S130816x256_S256x196_S130816x196_1_0_0_1_n_n_wf
def scatter_S512x14x512x14_S512x2_S512x14x14_12_02_02_1 : ScatterDims S512x14x512x14 S512x2 S512x14x14 where
  updateWindowDims := [1, 2]
  insertedWindowDims := [0, 2]
  scatterDimsToOperandDims := [0, 2]
  indexVectorDim := 1
  wf := scatter_S512x14x512x14_S512x2_S512x14x14_12_02_02_1_wf
def scatter_S512x14x512x14_S130816x2_S130816x14x14_12_02_02_1 : ScatterDims S512x14x512x14 S130816x2 S130816x14x14 where
  updateWindowDims := [1, 2]
  insertedWindowDims := [0, 2]
  scatterDimsToOperandDims := [0, 2]
  indexVectorDim := 1
  wf := scatter_S512x14x512x14_S130816x2_S130816x14x14_12_02_02_1_wf

class Facts : Prop extends Facts₀ where

variable [Facts]
-- ==== Proof.KernelAround.lean ====
/-
  @main of `Kernel` around its one kernel region, for the frame and for everything read off it later.

  The region is entered after 41 host operations (the diagonal blocks' multilayer perceptron and the two
  narrowed weight matrices) and followed by 79 more (the gather of the canonical pairs out of the dense
  [512, 512, 196] result, the three scatters into the [512, 14, 512, 14] matrix, the final reshape).
  Here: the contents the region finds (`V0`, `V`), that @main is "the lines before, the region, the lines
  after" in the form the frame theorem for a region with a host tail takes, that the later lines write no
  array the region stages and none of the fourteen arguments, that the earlier lines write no argument
  either, and a window's block at a grid point read off the array as the region finds it.
  Everything is stated at any float instance, so the word-level program and its idealization share the text.
-/
import proofs.«124574_j70162585747869_2_alg».proof.Proof.Gen.Kernel.Launch
import proofs.«124574_j70162585747869_2_alg».proof.Proof.Gen.Kernel.Skeleton
import proofs.«124574_j70162585747869_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## The contents at the region's entry -/

/-- Core `c`'s TensorCore buffers when the region is entered: the launch contents after the three stretches
    of host operations before it. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem before_fresh0 : (hostOps0 : List (HloOp τ sig (Elt F))).Forall fun op => op.fresh = ∅ := by
  simp only [List.Forall]; repeat' constructor
theorem before_fresh1 : (hostOps0_1 : List (HloOp τ sig (Elt F))).Forall fun op => op.fresh = ∅ := by
  simp only [List.Forall]; repeat' constructor
theorem before_fresh2 : (hostOps0_2 : List (HloOp τ sig (Elt F))).Forall fun op => op.fresh = ∅ := by
  simp only [List.Forall]; repeat' constructor
theorem tail_fresh : (hostOps1 : List (HloOp τ sig (Elt F))).Forall fun op => op.fresh = ∅ := by
  simp only [List.Forall]; repeat' constructor

/-- @main is the lines before the region, the region, the lines after it: it reduces to the region continued by
    the later lines. -/
theorem main_around (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨before_fresh0, before_fresh1, before_fresh2⟩) main_chain

/-! ## The lines after the region -/

/-- They touch the region's arrays and the buffers that bypass it only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem tail_alloc : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh) op hop
/-- Each of them writes its own result buffer only, and none of those is an array the region stages: decided
    operation by operation along the list, once for all seven windows. -/
theorem tail_writes : (hostOps1 : List (HloOp τ sig (Elt F))).Forall fun op =>
    ∀ w : Fin 7, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp tail_writes) op hop

/-! ## The arguments are written by no host operation -/

/-- No host operation before the region writes argument 0: the region finds it as launched. -/
theorem entry_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 1: the region finds it as launched. -/
theorem entry_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 2: the region finds it as launched. -/
theorem entry_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 3: the region finds it as launched. -/
theorem entry_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 4: the region finds it as launched. -/
theorem entry_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 5: the region finds it as launched. -/
theorem entry_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 6: the region finds it as launched. -/
theorem entry_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 7: the region finds it as launched. -/
theorem entry_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 8: the region finds it as launched. -/
theorem entry_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 9: the region finds it as launched. -/
theorem entry_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 10: the region finds it as launched. -/
theorem entry_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 11: the region finds it as launched. -/
theorem entry_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 12: the region finds it as launched. -/
theorem entry_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 13: the region finds it as launched. -/
theorem entry_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes argument 2, and no window stages it: it ends as launched. -/
theorem exit_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact entry_arg2 m c

/-- No host operation after the region writes argument 3, and no window stages it: it ends as launched. -/
theorem exit_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact entry_arg3 m c

/-- No host operation after the region writes argument 4, and no window stages it: it ends as launched. -/
theorem exit_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact entry_arg4 m c

/-- No host operation after the region writes argument 5, and no window stages it: it ends as launched. -/
theorem exit_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact entry_arg5 m c

/-- No host operation after the region writes argument 6, and no window stages it: it ends as launched. -/
theorem exit_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact entry_arg6 m c

/-- No host operation after the region writes argument 7, and no window stages it: it ends as launched. -/
theorem exit_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact entry_arg7 m c

/-- No host operation after the region writes argument 8, and no window stages it: it ends as launched. -/
theorem exit_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact entry_arg8 m c

/-- No host operation after the region writes argument 10, and no window stages it: it ends as launched. -/
theorem exit_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact entry_arg10 m c

/-- No host operation after the region writes argument 12, and no window stages it: it ends as launched. -/
theorem exit_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact entry_arg12 m c

/-- No host operation after the region writes argument 13, and no window stages it: it ends as launched. -/
theorem exit_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact entry_arg13 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not
    fetched its block index has not moved), for any proof data over the region-entry arrays whose body leaves the
    block in place. -/
theorem found0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (where it is not
    fetched its block index has not moved), for any proof data over the region-entry arrays whose body leaves the
    block in place. -/
theorem found1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (where it is not
    fetched its block index has not moved), for any proof data over the region-entry arrays whose body leaves the
    block in place. -/
theorem found2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (where it is not
    fetched its block index has not moved), for any proof data over the region-entry arrays whose body leaves the
    block in place. -/
theorem found3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (where it is not
    fetched its block index has not moved), for any proof data over the region-entry arrays whose body leaves the
    block in place. -/
theorem found4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not (where it is not
    fetched its block index has not moved), for any proof data over the region-entry arrays whose body leaves the
    block in place. -/
theorem found5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: an argument a window stages ends at the region-entry contents of an input window's
    array, the others as the later lines leave a buffer that bypasses the region; either way as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats 0 c).arrAt_in 0 rfl _).trans ((hA c 0).trans (entry_arg0 m c))),
      ((h c).1 1).trans (((dats 0 c).arrAt_in 1 rfl _).trans ((hA c 1).trans (entry_arg1 m c))),
      ((h c).2 main_arg2 (Pipeline.mem_restRefs_of main_arg2 (by decide) (by decide))).trans (exit_arg2 m dats c),
      ((h c).2 main_arg3 (Pipeline.mem_restRefs_of main_arg3 (by decide) (by decide))).trans (exit_arg3 m dats c),
      ((h c).2 main_arg4 (Pipeline.mem_restRefs_of main_arg4 (by decide) (by decide))).trans (exit_arg4 m dats c),
      ((h c).2 main_arg5 (Pipeline.mem_restRefs_of main_arg5 (by decide) (by decide))).trans (exit_arg5 m dats c),
      ((h c).2 main_arg6 (Pipeline.mem_restRefs_of main_arg6 (by decide) (by decide))).trans (exit_arg6 m dats c),
      ((h c).2 main_arg7 (Pipeline.mem_restRefs_of main_arg7 (by decide) (by decide))).trans (exit_arg7 m dats c),
      ((h c).2 main_arg8 (Pipeline.mem_restRefs_of main_arg8 (by decide) (by decide))).trans (exit_arg8 m dats c),
      ((h c).1 3).trans (((dats 0 c).arrAt_in 3 rfl _).trans ((hA c 3).trans (entry_arg9 m c))),
      ((h c).2 main_arg10 (Pipeline.mem_restRefs_of main_arg10 (by decide) (by decide))).trans (exit_arg10 m dats c),
      ((h c).1 5).trans (((dats 0 c).arrAt_in 5 rfl _).trans ((hA c 5).trans (entry_arg11 m c))),
      ((h c).2 main_arg12 (Pipeline.mem_restRefs_of main_arg12 (by decide) (by decide))).trans (exit_arg12 m dats c),
      ((h c).2 main_arg13 (Pipeline.mem_restRefs_of main_arg13 (by decide) (by decide))).trans (exit_arg13 m dats c)⟩) h

end Cert.Kernel.Around

end
-- ==== Proof.KernelBody.lean ====
/-
  The frame of `Kernel`: its one kernel region run at every grid point, inside @main.

  The body at grid point (i, j) loads rows 64·i … 64·i+63 and rows 64·j … 64·j+63 of the node features (the
  whole [512, 128] array is staged once), the point's [64, 64, 128] block of edge features, the two weight
  matrices and the two bias vectors, computes ONE pure term of those seven values (the skeleton's payload), and
  stores it over the whole [64, 64, 196] output block; the load of the output block that precedes the store
  reads a value nothing uses. So after the body each input buffer holds what it held and the output buffer
  holds that term: `outBlock`. The proof data names this per point, the body's triple is run by the symbolic
  executor, and the frame theorem for a region followed by host operations gives the run and the frame.
  Stated at any float instance.
-/
import proofs.«124574_j70162585747869_2_alg».proof.Proof.KernelAround

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

/-- Rows 64·i … 64·i+63 of the staged node features. -/
abbrev rowsI (i : grid0.Coords) : Rect S512x128 := Rect.unit (s := S512x128) (k0_off1 i) S64x128.size (k0_off1_inb i)
/-- Rows 64·j … 64·j+63 of the staged node features. -/
abbrev rowsJ (i : grid0.Coords) : Rect S512x128 := Rect.unit (s := S512x128) (k0_off2 i) S64x128.size (k0_off2_inb i)
abbrev allE : Rect S64x64x128 := Rect.unit (s := S64x64x128) ![0, 0, 0] S64x64x128.size inb_S64x64x128_S64x64x128_0_0_0
abbrev allW1 : Rect S384x256 := Rect.unit (s := S384x256) ![0, 0] S384x256.size inb_S384x256_S384x256_0_0
abbrev allB1 : Rect S256 := Rect.unit (s := S256) ![0] S256.size inb_S256_S256_0
abbrev allW2 : Rect S256x196 := Rect.unit (s := S256x196) ![0, 0] S256x196.size inb_S256x196_S256x196_0_0
abbrev allB2 : Rect S196 := Rect.unit (s := S196) ![0] S196.size inb_S196_S196_0
abbrev allOut : Rect S64x64x196 := Rect.unit (s := S64x64x196) ![0, 0, 0] S64x64x196.size inb_S64x64x196_S64x64x196_0_0_0

/-! ## What the body leaves in the output buffer -/

/-- The output window's staging buffer after the body at grid coordinates `i`, from the six input buffers'
    contents: its one store, of the payload of the seven loaded values. -/
def outBlock (i : grid0.Coords) (x0 : Vec F S512x128 .f32) (x1 : Vec F S64x64x128 .f32) (x2 : Vec F S384x256 .bf16) (x3 : Vec F S256 .f32) (x4 : Vec F S256x196 .bf16) (x5 : Vec F S196 .f32) : Vec F S64x64x196 .bf16 :=
  View.canon [⟨allOut, k0_pay1 (View.ld x0 (rowsI i)) (View.ld x0 (rowsJ i)) (View.ld x1 allE) (View.ld x2 allW1) (View.ld x3 allB1) (View.ld x4 allW2) (View.ld x5 allB2)⟩]

/-- The one store covers the buffer. -/
theorem outCover (p0 : Vec F S64x64x196 .bf16) (y : S64x64x196.Idx) :
    ∃ pc ∈ ([⟨allOut, p0⟩] : List (View.Piece (Elt F) S64x64x196 .bf16)), y ∈ pc.1.set :=
  View.cover_of_tiled [⟨allOut, p0⟩] S64x64x196.size (by rfl) y

/-! ## The body's triple -/

set_option maxHeartbeats 4000000 in
/-- The kernel body on whole staging memrefs, the six inputs' at contents `x0 … x5` and the output's at anything,
    runs to the continuation holding the inputs' as they were and the output's at `outBlock`. -/
theorem sound_kernel (c : Dev nD) (E : Set ℕ) (i : grid0.Coords) (arg2 : Memref sig .tc .vmem S512x128 .f32) (harg2 : arg2.IsWhole) (arg3 : Memref sig .tc .vmem S64x64x128 .f32) (harg3 : arg3.IsWhole) (arg4 : Memref sig .tc .vmem S384x256 .bf16) (harg4 : arg4.IsWhole) (arg5 : Memref sig .tc .vmem S256 .f32) (harg5 : arg5.IsWhole) (arg6 : Memref sig .tc .vmem S256x196 .bf16) (harg6 : arg6.IsWhole) (arg7 : Memref sig .tc .vmem S196 .f32) (harg7 : arg7.IsWhole) (arg8 : Memref sig .tc .vmem S64x64x196 .bf16) (harg8 : arg8.IsWhole)
    (x0 : Vec F S512x128 .f32) (x1 : Vec F S64x64x128 .f32) (x2 : Vec F S384x256 .bf16) (x3 : Vec F S256 .f32) (x4 : Vec F S256x196 .bf16) (x5 : Vec F S196 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outBlock i x0 x1 x2 x3 x4 x5)) -∗ K ⟨⟩))
      ⊢ wp frame (wpE (defs₀ (F := F)) Variants.none c none) E (cc0__offdiag_kernel i arg2 harg2 arg3 harg3 arg4 harg4 arg5 harg5 arg6 harg6 arg7 harg7 arg8 harg8) K := by
  simp only [cc0__offdiag_kernel_eq_skeleton]; unfold cc0__offdiag_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (outCover _)

/-! ## The proof data -/

/-- The proof data of the region on core `c`: the arrays as the region finds them; after the body at point `t` each
    input's buffer at its block and the output's at `outBlock` of the six input blocks; the class's invariant
    (the scoped rest and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (grid0.coords t) (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outBlock (grid0.coords t) (iblk m c 0 t) (iblk m c 1 t) (iblk m c 2 t) (iblk m c 3 t) (iblk m c 4 t) (iblk m c 5 t) := by dsimp only [dats]

theorem found0 (c : Dev nD) (t : Fin cfg0.N) (d) : (dats m 0 c).before 0 t d = iblk m c 0 t :=
  found0_of m (dats m 0 c) (A_eq m c 0) (after0 m c) t d
theorem found1 (c : Dev nD) (t : Fin cfg0.N) (d) : (dats m 0 c).before 1 t d = iblk m c 1 t :=
  found1_of m (dats m 0 c) (A_eq m c 1) (after1 m c) t d
theorem found2 (c : Dev nD) (t : Fin cfg0.N) (d) : (dats m 0 c).before 2 t d = iblk m c 2 t :=
  found2_of m (dats m 0 c) (A_eq m c 2) (after2 m c) t d
theorem found3 (c : Dev nD) (t : Fin cfg0.N) (d) : (dats m 0 c).before 3 t d = iblk m c 3 t :=
  found3_of m (dats m 0 c) (A_eq m c 3) (after3 m c) t d
theorem found4 (c : Dev nD) (t : Fin cfg0.N) (d) : (dats m 0 c).before 4 t d = iblk m c 4 t :=
  found4_of m (dats m 0 c) (A_eq m c 4) (after4 m c) t d
theorem found5 (c : Dev nD) (t : Fin cfg0.N) (d) : (dats m 0 c).before 5 t d = iblk m c 5 t :=
  found5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so `sound_kernel` applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main
    terminates, and every final state has every array of the region at what the proof data says and every other
    unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_alloc) (hkeep := tail_keeps)
    (hmain := main_around m Variants.none) (hA := A_eq m) (hΦ := fun _ _ => rfl)

/-- The frame: @main runs to the end, faults nowhere, and its fourteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.Kernel.Around

end
-- ==== Proof.KernelIdealAround.lean ====
/-
  @main of `KernelIdeal` around its one kernel region, for the frame and for everything read off it later.

  The region is entered after 41 host operations (the diagonal blocks' multilayer perceptron and the two
  narrowed weight matrices) and followed by 79 more (the gather of the canonical pairs out of the dense
  [512, 512, 196] result, the three scatters into the [512, 14, 512, 14] matrix, the final reshape).
  Here: the contents the region finds (`V0`, `V`), that @main is "the lines before, the region, the lines
  after" in the form the frame theorem for a region with a host tail takes, that the later lines write no
  array the region stages and none of the fourteen arguments, that the earlier lines write no argument
  either, and a window's block at a grid point read off the array as the region finds it.
  Everything is stated at any float instance, so the word-level program and its idealization share the text.
-/
import proofs.«124574_j70162585747869_2_alg».proof.Proof.Gen.KernelIdeal.Launch
import proofs.«124574_j70162585747869_2_alg».proof.Proof.Gen.KernelIdeal.Skeleton
import proofs.«124574_j70162585747869_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## The contents at the region's entry -/

/-- Core `c`'s TensorCore buffers when the region is entered: the launch contents after the three stretches
    of host operations before it. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem before_fresh0 : (hostOps0 : List (HloOp τ sig (Elt F))).Forall fun op => op.fresh = ∅ := by
  simp only [List.Forall]; repeat' constructor
theorem before_fresh1 : (hostOps0_1 : List (HloOp τ sig (Elt F))).Forall fun op => op.fresh = ∅ := by
  simp only [List.Forall]; repeat' constructor
theorem before_fresh2 : (hostOps0_2 : List (HloOp τ sig (Elt F))).Forall fun op => op.fresh = ∅ := by
  simp only [List.Forall]; repeat' constructor
theorem tail_fresh : (hostOps1 : List (HloOp τ sig (Elt F))).Forall fun op => op.fresh = ∅ := by
  simp only [List.Forall]; repeat' constructor

/-- @main is the lines before the region, the region, the lines after it: it reduces to the region continued by
    the later lines. -/
theorem main_around (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨before_fresh0, before_fresh1, before_fresh2⟩) main_chain

/-! ## The lines after the region -/

/-- They touch the region's arrays and the buffers that bypass it only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem tail_alloc : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh) op hop
/-- Each of them writes its own result buffer only, and none of those is an array the region stages: decided
    operation by operation along the list, once for all seven windows. -/
theorem tail_writes : (hostOps1 : List (HloOp τ sig (Elt F))).Forall fun op =>
    ∀ w : Fin 7, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp tail_writes) op hop

/-! ## The arguments are written by no host operation -/

/-- No host operation before the region writes argument 0: the region finds it as launched. -/
theorem entry_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 1: the region finds it as launched. -/
theorem entry_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 2: the region finds it as launched. -/
theorem entry_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 3: the region finds it as launched. -/
theorem entry_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 4: the region finds it as launched. -/
theorem entry_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 5: the region finds it as launched. -/
theorem entry_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 6: the region finds it as launched. -/
theorem entry_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 7: the region finds it as launched. -/
theorem entry_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 8: the region finds it as launched. -/
theorem entry_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 9: the region finds it as launched. -/
theorem entry_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 10: the region finds it as launched. -/
theorem entry_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 11: the region finds it as launched. -/
theorem entry_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 12: the region finds it as launched. -/
theorem entry_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation before the region writes argument 13: the region finds it as launched. -/
theorem entry_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes argument 2, and no window stages it: it ends as launched. -/
theorem exit_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact entry_arg2 m c

/-- No host operation after the region writes argument 3, and no window stages it: it ends as launched. -/
theorem exit_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact entry_arg3 m c

/-- No host operation after the region writes argument 4, and no window stages it: it ends as launched. -/
theorem exit_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact entry_arg4 m c

/-- No host operation after the region writes argument 5, and no window stages it: it ends as launched. -/
theorem exit_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact entry_arg5 m c

/-- No host operation after the region writes argument 6, and no window stages it: it ends as launched. -/
theorem exit_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact entry_arg6 m c

/-- No host operation after the region writes argument 7, and no window stages it: it ends as launched. -/
theorem exit_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact entry_arg7 m c

/-- No host operation after the region writes argument 8, and no window stages it: it ends as launched. -/
theorem exit_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact entry_arg8 m c

/-- No host operation after the region writes argument 10, and no window stages it: it ends as launched. -/
theorem exit_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact entry_arg10 m c

/-- No host operation after the region writes argument 12, and no window stages it: it ends as launched. -/
theorem exit_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact entry_arg12 m c

/-- No host operation after the region writes argument 13, and no window stages it: it ends as launched. -/
theorem exit_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact entry_arg13 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not
    fetched its block index has not moved), for any proof data over the region-entry arrays whose body leaves the
    block in place. -/
theorem found0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (where it is not
    fetched its block index has not moved), for any proof data over the region-entry arrays whose body leaves the
    block in place. -/
theorem found1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (where it is not
    fetched its block index has not moved), for any proof data over the region-entry arrays whose body leaves the
    block in place. -/
theorem found2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (where it is not
    fetched its block index has not moved), for any proof data over the region-entry arrays whose body leaves the
    block in place. -/
theorem found3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (where it is not
    fetched its block index has not moved), for any proof data over the region-entry arrays whose body leaves the
    block in place. -/
theorem found4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not (where it is not
    fetched its block index has not moved), for any proof data over the region-entry arrays whose body leaves the
    block in place. -/
theorem found5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: an argument a window stages ends at the region-entry contents of an input window's
    array, the others as the later lines leave a buffer that bypasses the region; either way as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats 0 c).arrAt_in 0 rfl _).trans ((hA c 0).trans (entry_arg0 m c))),
      ((h c).1 1).trans (((dats 0 c).arrAt_in 1 rfl _).trans ((hA c 1).trans (entry_arg1 m c))),
      ((h c).2 main_arg2 (Pipeline.mem_restRefs_of main_arg2 (by decide) (by decide))).trans (exit_arg2 m dats c),
      ((h c).2 main_arg3 (Pipeline.mem_restRefs_of main_arg3 (by decide) (by decide))).trans (exit_arg3 m dats c),
      ((h c).2 main_arg4 (Pipeline.mem_restRefs_of main_arg4 (by decide) (by decide))).trans (exit_arg4 m dats c),
      ((h c).2 main_arg5 (Pipeline.mem_restRefs_of main_arg5 (by decide) (by decide))).trans (exit_arg5 m dats c),
      ((h c).2 main_arg6 (Pipeline.mem_restRefs_of main_arg6 (by decide) (by decide))).trans (exit_arg6 m dats c),
      ((h c).2 main_arg7 (Pipeline.mem_restRefs_of main_arg7 (by decide) (by decide))).trans (exit_arg7 m dats c),
      ((h c).2 main_arg8 (Pipeline.mem_restRefs_of main_arg8 (by decide) (by decide))).trans (exit_arg8 m dats c),
      ((h c).1 3).trans (((dats 0 c).arrAt_in 3 rfl _).trans ((hA c 3).trans (entry_arg9 m c))),
      ((h c).2 main_arg10 (Pipeline.mem_restRefs_of main_arg10 (by decide) (by decide))).trans (exit_arg10 m dats c),
      ((h c).1 5).trans (((dats 0 c).arrAt_in 5 rfl _).trans ((hA c 5).trans (entry_arg11 m c))),
      ((h c).2 main_arg12 (Pipeline.mem_restRefs_of main_arg12 (by decide) (by decide))).trans (exit_arg12 m dats c),
      ((h c).2 main_arg13 (Pipeline.mem_restRefs_of main_arg13 (by decide) (by decide))).trans (exit_arg13 m dats c)⟩) h

end Cert.KernelIdeal.Around

end
-- ==== Proof.KernelIdealBody.lean ====
/-
  The frame of `KernelIdeal`: its one kernel region run at every grid point, inside @main.

  The body at grid point (i, j) loads rows 64·i … 64·i+63 and rows 64·j … 64·j+63 of the node features (the
  whole [512, 128] array is staged once), the point's [64, 64, 128] block of edge features, the two weight
  matrices and the two bias vectors, computes ONE pure term of those seven values (the skeleton's payload), and
  stores it over the whole [64, 64, 196] output block; the load of the output block that precedes the store
  reads a value nothing uses. So after the body each input buffer holds what it held and the output buffer
  holds that term: `outBlock`. The proof data names this per point, the body's triple is run by the symbolic
  executor, and the frame theorem for a region followed by host operations gives the run and the frame.
  Stated at any float instance.
-/
import proofs.«124574_j70162585747869_2_alg».proof.Proof.KernelIdealAround

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

/-- Rows 64·i … 64·i+63 of the staged node features. -/
abbrev rowsI (i : grid0.Coords) : Rect S512x128 := Rect.unit (s := S512x128) (k0_off1 i) S64x128.size (k0_off1_inb i)
/-- Rows 64·j … 64·j+63 of the staged node features. -/
abbrev rowsJ (i : grid0.Coords) : Rect S512x128 := Rect.unit (s := S512x128) (k0_off2 i) S64x128.size (k0_off2_inb i)
abbrev allE : Rect S64x64x128 := Rect.unit (s := S64x64x128) ![0, 0, 0] S64x64x128.size inb_S64x64x128_S64x64x128_0_0_0
abbrev allW1 : Rect S384x256 := Rect.unit (s := S384x256) ![0, 0] S384x256.size inb_S384x256_S384x256_0_0
abbrev allB1 : Rect S256 := Rect.unit (s := S256) ![0] S256.size inb_S256_S256_0
abbrev allW2 : Rect S256x196 := Rect.unit (s := S256x196) ![0, 0] S256x196.size inb_S256x196_S256x196_0_0
abbrev allB2 : Rect S196 := Rect.unit (s := S196) ![0] S196.size inb_S196_S196_0
abbrev allOut : Rect S64x64x196 := Rect.unit (s := S64x64x196) ![0, 0, 0] S64x64x196.size inb_S64x64x196_S64x64x196_0_0_0

/-! ## What the body leaves in the output buffer -/

/-- The output window's staging buffer after the body at grid coordinates `i`, from the six input buffers'
    contents: its one store, of the payload of the seven loaded values. -/
def outBlock (i : grid0.Coords) (x0 : Vec F S512x128 .f32) (x1 : Vec F S64x64x128 .f32) (x2 : Vec F S384x256 .bf16) (x3 : Vec F S256 .f32) (x4 : Vec F S256x196 .bf16) (x5 : Vec F S196 .f32) : Vec F S64x64x196 .bf16 :=
  View.canon [⟨allOut, k0_pay1 (View.ld x0 (rowsI i)) (View.ld x0 (rowsJ i)) (View.ld x1 allE) (View.ld x2 allW1) (View.ld x3 allB1) (View.ld x4 allW2) (View.ld x5 allB2)⟩]

/-- The one store covers the buffer. -/
theorem outCover (p0 : Vec F S64x64x196 .bf16) (y : S64x64x196.Idx) :
    ∃ pc ∈ ([⟨allOut, p0⟩] : List (View.Piece (Elt F) S64x64x196 .bf16)), y ∈ pc.1.set :=
  View.cover_of_tiled [⟨allOut, p0⟩] S64x64x196.size (by rfl) y

/-! ## The body's triple -/

set_option maxHeartbeats 4000000 in
/-- The kernel body on whole staging memrefs, the six inputs' at contents `x0 … x5` and the output's at anything,
    runs to the continuation holding the inputs' as they were and the output's at `outBlock`. -/
theorem sound_kernel (c : Dev nD) (E : Set ℕ) (i : grid0.Coords) (arg2 : Memref sig .tc .vmem S512x128 .f32) (harg2 : arg2.IsWhole) (arg3 : Memref sig .tc .vmem S64x64x128 .f32) (harg3 : arg3.IsWhole) (arg4 : Memref sig .tc .vmem S384x256 .bf16) (harg4 : arg4.IsWhole) (arg5 : Memref sig .tc .vmem S256 .f32) (harg5 : arg5.IsWhole) (arg6 : Memref sig .tc .vmem S256x196 .bf16) (harg6 : arg6.IsWhole) (arg7 : Memref sig .tc .vmem S196 .f32) (harg7 : arg7.IsWhole) (arg8 : Memref sig .tc .vmem S64x64x196 .bf16) (harg8 : arg8.IsWhole)
    (x0 : Vec F S512x128 .f32) (x1 : Vec F S64x64x128 .f32) (x2 : Vec F S384x256 .bf16) (x3 : Vec F S256 .f32) (x4 : Vec F S256x196 .bf16) (x5 : Vec F S196 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outBlock i x0 x1 x2 x3 x4 x5)) -∗ K ⟨⟩))
      ⊢ wp frame (wpE (defs₀ (F := F)) Variants.none c none) E (cc0__offdiag_kernel i arg2 harg2 arg3 harg3 arg4 harg4 arg5 harg5 arg6 harg6 arg7 harg7 arg8 harg8) K := by
  simp only [cc0__offdiag_kernel_eq_skeleton]; unfold cc0__offdiag_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (outCover _)

/-! ## The proof data -/

/-- The proof data of the region on core `c`: the arrays as the region finds them; after the body at point `t` each
    input's buffer at its block and the output's at `outBlock` of the six input blocks; the class's invariant
    (the scoped rest and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (grid0.coords t) (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outBlock (grid0.coords t) (iblk m c 0 t) (iblk m c 1 t) (iblk m c 2 t) (iblk m c 3 t) (iblk m c 4 t) (iblk m c 5 t) := by dsimp only [dats]

theorem found0 (c : Dev nD) (t : Fin cfg0.N) (d) : (dats m 0 c).before 0 t d = iblk m c 0 t :=
  found0_of m (dats m 0 c) (A_eq m c 0) (after0 m c) t d
theorem found1 (c : Dev nD) (t : Fin cfg0.N) (d) : (dats m 0 c).before 1 t d = iblk m c 1 t :=
  found1_of m (dats m 0 c) (A_eq m c 1) (after1 m c) t d
theorem found2 (c : Dev nD) (t : Fin cfg0.N) (d) : (dats m 0 c).before 2 t d = iblk m c 2 t :=
  found2_of m (dats m 0 c) (A_eq m c 2) (after2 m c) t d
theorem found3 (c : Dev nD) (t : Fin cfg0.N) (d) : (dats m 0 c).before 3 t d = iblk m c 3 t :=
  found3_of m (dats m 0 c) (A_eq m c 3) (after3 m c) t d
theorem found4 (c : Dev nD) (t : Fin cfg0.N) (d) : (dats m 0 c).before 4 t d = iblk m c 4 t :=
  found4_of m (dats m 0 c) (A_eq m c 4) (after4 m c) t d
theorem found5 (c : Dev nD) (t : Fin cfg0.N) (d) : (dats m 0 c).before 5 t d = iblk m c 5 t :=
  found5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so `sound_kernel` applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found0, found1, found2, found3, found4, found5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main
    terminates, and every final state has every array of the region at what the proof data says and every other
    unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_alloc) (hkeep := tail_keeps)
    (hmain := main_around m Variants.none) (hA := A_eq m) (hΦ := fun _ _ => rfl)

/-- The frame: @main runs to the end, faults nowhere, and its fourteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.KernelIdeal.Around

end
-- ==== Proof.OffDiagSpec.lean ====
/-
  The off-diagonal correction as mathematics: one entry of a two-layer perceptron of one 384-long feature row.

  For an ordered pair of atoms the feature row is the first atom's 128 node features, then the second atom's, then
  the pair's 128 edge features (`row3`). The correction's entry `k` is
      ( Σ_h  silu( Σ_f row f · W1 f h + b1 h ) · W2 h k ) + b2 k,       silu z = z · 1 / (1 + e^(−z)),
  on the extended reals (`mlpEntry`). The kernel computes this for every ordered pair of a 64 × 64 tile at once and the
  reference for the listed pairs only; both are this one function of a row, which is all the two have to share:
  no sum is regrouped and no factor moved, so nothing here needs the inputs to be finite.
-/
import Idealize.ShloMosaic.PureOps.Ideal
import Idealize.ShloMosaic.Lib.ValueIdx

noncomputable section

namespace Cert.OffDiag

open Idealize.ShloMosaic Idealize.ShloMosaic.ValueIdx

/-- The sigmoid-weighted linear unit `z · σ(z)`, σ the logistic function with its limits at ±∞. -/
def silu (z : EReal) : EReal := z * Ideal.logistic z

/-- The same with the logistic function spelt out as a quotient: `z · (1 / (1 + e^(−z)))`. -/
theorem silu_quotient (z : EReal) : z * Ideal.div 1 (1 + Ideal.exp (-z)) = silu z := rfl

/-- The float word of `1.0` denotes the real number one. -/
theorem ofBits_one : Ideal.ofBits .f32 0x3F800000#32 = 1 := by
  simp [Ideal.ofBits, Ideal.ieee, -EReal.coe_mul]; norm_num

/-- Entry `k` of the two-layer perceptron of one feature row. -/
def mlpEntry (row : Fin 384 → EReal) (W1 : Fin 384 → Fin 256 → EReal) (b1 : Fin 256 → EReal)
    (W2 : Fin 256 → Fin 196 → EReal) (b2 : Fin 196 → EReal) (k : Fin 196) : EReal :=
  (∑ h : Fin 256, silu ((∑ f : Fin 384, row f * W1 f h) + b1 h) * W2 h k) + b2 k

/-- Three 128-long rows laid end to end. -/
def row3 (r1 r2 r3 : Fin 128 → EReal) (f : Fin 384) : EReal :=
  if h1 : f.val < 128 then r1 ⟨f.val, h1⟩
  else if h2 : f.val < 256 then r2 ⟨f.val - 128, by omega⟩
  else r3 ⟨f.val - 256, by have := f.isLt; omega⟩

theorem row3_first (r1 r2 r3 : Fin 128 → EReal) (f : Fin 384) (h : f.val < 128) : row3 r1 r2 r3 f = r1 ⟨f.val, h⟩ := by
  unfold row3; rw [dif_pos h]

theorem row3_second (r1 r2 r3 : Fin 128 → EReal) (f : Fin 384) (h1 : ¬ f.val < 128) (h2 : f.val < 256) :
    row3 r1 r2 r3 f = r2 ⟨f.val - 128, by omega⟩ := by
  unfold row3; rw [dif_neg h1, dif_pos h2]

theorem row3_third (r1 r2 r3 : Fin 128 → EReal) (f : Fin 384) (h1 : ¬ f.val < 128) (h2 : ¬ f.val < 256) :
    row3 r1 r2 r3 f = r3 ⟨f.val - 256, by have := f.isLt; omega⟩ := by
  unfold row3; rw [dif_neg h1, dif_neg h2]

/-- The perceptron's entry depends on the row, the weights and the biases only through their values. -/
theorem mlpEntry_congr {row row' : Fin 384 → EReal} {W1 W1' : Fin 384 → Fin 256 → EReal} {b1 b1' : Fin 256 → EReal}
    {W2 W2' : Fin 256 → Fin 196 → EReal} {b2 b2' : Fin 196 → EReal} (k : Fin 196)
    (hrow : ∀ f, row f = row' f) (hW1 : ∀ f h, W1 f h = W1' f h) (hb1 : ∀ h, b1 h = b1' h)
    (hW2 : ∀ h, W2 h k = W2' h k) (hb2 : b2 k = b2' k) :
    mlpEntry row W1 b1 W2 b2 k = mlpEntry row' W1' b1' W2' b2' k := by
  unfold mlpEntry
  rw [hb2]
  refine congrArg (· + b2' k) (Finset.sum_congr rfl fun h _ => ?_)
  rw [hW2 h, hb1 h]
  refine congrArg (fun s => silu (s + b1' h) * W2' h k) (Finset.sum_congr rfl fun f _ => ?_)
  rw [hrow f, hW1 f h]

end Cert.OffDiag

end
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.LibPlainDot.lean ====
/-
  General lemmas: the dimension record of a plain matrix product.

  A product of an [a, k] array by a [k, n] array contracts the left operand's axis 1 against the right operand's
  axis 0; the result's axis 0 is the left operand's axis 0 and its axis 1 the right operand's axis 1; nothing is
  batched. For ANY dimension record with those six axis lists:

  * `contr_rank`, `contr_size`: the contraction has one axis, of extent k;
  * `lhs_row`, `lhs_col`: at result index i and contraction position q the left operand is read at
    (i 0, q 0);
  * `rhs_row`, `rhs_col`: the right operand is read at (q 0, i 1).

  These are the six facts under which a host product and a matrix-unit product into a zero accumulator are the sum
  over q of L (p, q) · R (q, j). Nothing here mentions a program: the extents are variables and the record is any
  record with the stated axis lists.
-/
import Idealize.ShloMosaic.Lib.ValueIdx

noncomputable section

namespace Cert.LibPlainDot

open Idealize.ShloMosaic Idealize.ShloMosaic.ValueIdx

variable {a k n : ℕ} (D : DotDims ⟨2, ![a, k]⟩ ⟨2, ![k, n]⟩ ⟨2, ![a, n]⟩)

/-- The contraction has one axis. -/
theorem contr_rank (hlc : D.lhsContracting = [1]) : D.contr.rank = 1 := by
  rw [D.rank_contr, hlc]; rfl

/-- Two coordinates of one index at equal positions are equal. -/
private theorem coord_congr {s : Shape} (i : s.Idx) (p q : ℕ) (hp : p < s.rank) (hq : q < s.rank) (h : p = q) :
    (i ⟨p, hp⟩).val = (i ⟨q, hq⟩).val := by subst h; rfl

/-- The contraction's one axis has the left operand's column extent. -/
theorem contr_size (hlc : D.lhsContracting = [1]) :
    D.contr.size ⟨0, by rw [contr_rank D hlc]; exact Nat.one_pos⟩ = k := by
  have h0 : 0 < D.lhsContracting.length := by rw [hlc]; exact Nat.one_pos
  have e := D.size_contr 0 h0
  have e1 : D.lhsContracting[0] = (1 : Fin 2) := by simp only [hlc, List.getElem_cons_zero]
  rw [e1] at e
  exact e

/-- The left operand's row is the result's row. -/
theorem lhs_row (hlb : D.lhsBatch = []) (hln : D.lhsNonContracting = [0]) (i : (⟨2, ![a, n]⟩ : Shape).Idx) (q : D.contr.Idx) :
    (D.lhsIdx i q 0).val = (i 0).val := by
  unfold DotDims.lhsIdx
  rw [dif_neg (by rw [hlb]; exact List.not_mem_nil), dif_pos (by rw [hln]; exact List.mem_singleton.mpr rfl)]
  simp only [Fin.val_cast]
  exact coord_congr i _ _ _ _ (by simp [hlb, hln])

/-- The left operand's column is the contraction position. -/
theorem lhs_col (hlc : D.lhsContracting = [1]) (i : (⟨2, ![a, n]⟩ : Shape).Idx) (q : D.contr.Idx) :
    (D.lhsIdx i q 1).val = (q ⟨0, by rw [contr_rank D hlc]; exact Nat.one_pos⟩).val :=
  D.lhsIdx_val_of_single hlc i q

/-- The right operand's row is the contraction position. -/
theorem rhs_row (hlc : D.lhsContracting = [1]) (hrc : D.rhsContracting = [0]) (i : (⟨2, ![a, n]⟩ : Shape).Idx) (q : D.contr.Idx) :
    (D.rhsIdx i q 0).val = (q ⟨0, by rw [contr_rank D hlc]; exact Nat.one_pos⟩).val :=
  D.rhsIdx_val_of_single hrc i q

/-- The right operand's column is the result's column. -/
theorem rhs_col (hlb : D.lhsBatch = []) (hln : D.lhsNonContracting = [0]) (hrb : D.rhsBatch = []) (hrn : D.rhsNonContracting = [1])
    (i : (⟨2, ![a, n]⟩ : Shape).Idx) (q : D.contr.Idx) :
    (D.rhsIdx i q 1).val = (i 1).val := by
  unfold DotDims.rhsIdx
  rw [dif_neg (by rw [hrb]; exact List.not_mem_nil), dif_pos (by rw [hrn]; exact List.mem_singleton.mpr rfl)]
  simp only [Fin.val_cast]
  exact coord_congr i _ _ _ _ (by simp [hlb, hln, hrn])

end Cert.LibPlainDot

end
-- ==== Proof.LibMergeRows.lean ====
/-
  General lemmas: small layout operations read at an index written with `ix1` / `ix2` / `ix3`, over variable extents.

  * the two leading axes of an `[a, b, c]` array merged into one axis of `r = a · b` rows, and an `[r, c]` array split
    back into `[a, b, c]`: row `p · b + q` of the merged array is row `(p, q)` of the split one (the row-major position
    is kept), so neither direction needs a quotient or a remainder;
  * a column `[a, 1]` re-laid as a row `[1, a]`;
  * a one-entry array `[1, 1]` spread over `[a, b]`, and a rank-zero array cast to `[1, 1]`;
  * a rank-zero array spread over any shape by a `broadcast_in_dim` with no dimensions.
  Nothing here mentions a program: the extents are variables and the shape evidence is a hypothesis.
-/
import Idealize.ShloMosaic.Lib.Pipeline.Value
import Idealize.ShloMosaic.Lib.ValueIdx
import Idealize.ShloMosaic.Lib.ValueLayout

namespace Cert.LibMergeRows

open Idealize.ShloMosaic Idealize.ShloMosaic.ValueIdx

variable {α : Type}

/-- Row `(p, q)` of an `[a, b, ·]` array sits at row `p · b + q` of the array with the two leading axes merged. -/
def mergeIdx {a b r : ℕ} (hr : r = a * b) (p : Fin a) (q : Fin b) : Fin r :=
  ⟨p.val * b + q.val, by
    subst hr
    exact Nat.lt_of_lt_of_le (Nat.add_lt_add_left q.isLt _)
      (by rw [← Nat.succ_mul]; exact Nat.mul_le_mul_right _ p.isLt)⟩

theorem mergeIdx_val {a b r : ℕ} (hr : r = a * b) (p : Fin a) (q : Fin b) : (mergeIdx hr p q).val = p.val * b + q.val := rfl

/-- An `[a, b, c]` array with its two leading axes merged reads, at row `p · b + q`, the operand's row `(p, q)`. -/
theorem shapeCast_abc_rc_apply {a b c r : ℕ} (x : (⟨3, ![a, b, c]⟩ : Shape).Idx → α)
    (h : (⟨3, ![a, b, c]⟩ : Shape).ShapeCasts ⟨2, ![r, c]⟩) (hr : r = a * b) (p : Fin a) (q : Fin b) (k : Fin c) :
    shapeCast ⟨2, ![r, c]⟩ x h (ix2 (mergeIdx hr p q) k) = x (ix3 p q k) :=
  shapeCast_apply x h _ _ (by
    rw [Shape.rowMajor_val_three, Shape.rowMajor_val_two]
    rfl)

/-- An `[r, c]` array with its leading axis split into `a` groups of `b` rows reads, at `(p, q)`, the operand's row
    `p · b + q`. -/
theorem shapeCast_rc_abc_apply {a b c r : ℕ} (y : (⟨2, ![r, c]⟩ : Shape).Idx → α)
    (h : (⟨2, ![r, c]⟩ : Shape).ShapeCasts ⟨3, ![a, b, c]⟩) (hr : r = a * b) (p : Fin a) (q : Fin b) (k : Fin c) :
    shapeCast ⟨3, ![a, b, c]⟩ y h (ix3 p q k) = y (ix2 (mergeIdx hr p q) k) :=
  shapeCast_apply y h _ _ (by
    rw [Shape.rowMajor_val_three, Shape.rowMajor_val_two]
    rfl)

/-- A column `[a, 1]` re-laid as a row `[1, a]` reads, at `(u, p)`, the column's entry `p`. -/
theorem shapeCast_a1_1a_apply {a : ℕ} (x : (⟨2, ![a, 1]⟩ : Shape).Idx → α)
    (h : (⟨2, ![a, 1]⟩ : Shape).ShapeCasts ⟨2, ![1, a]⟩) (u : Fin 1) (p : Fin a) :
    shapeCast ⟨2, ![1, a]⟩ x h (ix2 u p) = x (ix2 p (0 : Fin 1)) :=
  shapeCast_apply x h _ _ (by
    have hu : u.val = 0 := by omega
    rw [Shape.rowMajor_val_two, Shape.rowMajor_val_two]
    show p.val * 1 + 0 = u.val * a + p.val
    rw [hu, Nat.mul_one, Nat.add_zero, Nat.zero_mul, Nat.zero_add])

/-- A column `[a, 1]` flattened to a vector `[a]` reads, at `p`, the column's entry `p`. -/
theorem shapeCast_a1_a_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A one-entry array `[1, 1]` spread over `[a, b]` reads its one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- A rank-zero array cast to `[1, 1]` reads its one entry. -/
theorem shapeCast_0_11_apply (x : (⟨0, ![]⟩ : Shape).Idx → α)
    (h : (⟨0, ![]⟩ : Shape).ShapeCasts ⟨2, ![1, 1]⟩) (u v : Fin 1) :
    shapeCast ⟨2, ![1, 1]⟩ x h (ix2 u v) = x ix0 :=
  congrArg x (eq_ix0 _)

/-- A rank-zero array spread over any shape reads its one entry everywhere. -/
theorem broadcastInDim_0_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun ax => ax.elim0)

end Cert.LibMergeRows
-- ==== Proof.KernelIdealTile.lean ====
/-
  One 64 × 64 tile of the dense off-diagonal correction, read at an index.

  The kernel body's one pure term (the skeleton's payload) is three stages:
  * `feat`: the [4096, 384] matrix of feature rows — row 64·a + b is the a-th loaded node row (rows 64·i …), the b-th
    loaded node row (rows 64·j …) and the tile's edge row (a, b) laid end to end — built as two broadcasts and a
    three-piece concatenation along the last axis with the two leading axes merged;
  * `hidden`: silu of (feat · W1 + b1), a [4096, 256] matrix;
  * `outp`: hidden · W2 + b2 with the 4096 rows split back into 64 × 64.
  Each stage is a copy of the payload's own lines, so the payload IS their composition by unfolding; each is then read at
  an index with the general dense-layer, merged-rows and concatenation lemmas, and the composition at (a, b, k) is the
  perceptron's entry k of row (a, b). The narrowings to bfloat16 between the stages are the identity on the extended reals.
-/
import proofs.«124574_j70162585747869_2_alg».proof.Proof.Gen.KernelIdeal.Skeleton
import proofs.«124574_j70162585747869_2_alg».proof.Proof.OffDiagSpec
import proofs.«124574_j70162585747869_2_alg».proof.Proof.LibAffine
import proofs.«124574_j70162585747869_2_alg».proof.Proof.LibPlainDot
import proofs.«124574_j70162585747869_2_alg».proof.Proof.LibMergeRows
import Idealize.ShloMosaic.Lib.ValueLayout
import Idealize.ShloMosaic.Lib.Pipeline.Value

set_option maxRecDepth 16384

noncomputable section

namespace Cert.KernelIdeal.Tile

open Idealize.ShloMosaic Idealize.ShloMosaic.ValueIdx
open Cert.KernelIdeal Cert.KernelIdeal.Gen Cert.OffDiag Cert.LibMergeRows Cert.LibAffine Cert.LibPlainDot

theorem rows4096 : (4096 : ℕ) = 64 * 64 := rfl

/-! ## The three stages -/

/-- The tile's feature rows: [4096, 384]. -/
def feat (v5 v7 : FVec Ideal S64x128 .f32) (v8 : FVec Ideal S64x64x128 .f32) : FVec Ideal S4096x384 .bf16 :=
  shapeCast S4096x384 (concatenate S64x64x384 2
    [⟨S64x64x128, broadcastTo S64x64x128 (shapeCast S64x1x128 (shapeCast S64x1x128 (truncf .bf16 v5 bitsLt_bf16_f32) shapeCasts_S64x128_S64x1x128) shapeCasts_S64x1x128_S64x1x128) broadcasts_S64x1x128_S64x64x128⟩,
     ⟨S64x64x128, broadcastTo S64x64x128 (shapeCast S1x64x128 (shapeCast S1x64x128 (truncf .bf16 v7 bitsLt_bf16_f32) shapeCasts_S64x128_S1x64x128) shapeCasts_S1x64x128_S1x64x128) broadcasts_S1x64x128_S64x64x128⟩,
     ⟨S64x64x128, truncf .bf16 v8 bitsLt_bf16_f32⟩]
    concatenates_S64x64x128_S64x64x128_S64x64x128_S64x64x384_d2) shapeCasts_S64x64x384_S4096x384

/-- The first layer before its activation: feat · W1 + b1. -/
def pre1 (x : FVec Ideal S4096x384 .bf16) (v20 : FVec Ideal S384x256 .bf16) (v23 : FVec Ideal S256 .f32) : FVec Ideal S4096x256 .f32 :=
  addf (matmul dot_S4096x384_S384x256_S4096x256_1_0_0_1_n_n none x (shapeCast S384x256 v20 shapeCasts_S384x256_S384x256) (constant (F := Ideal) S4096x256 .f32 0x00000000#32))
    (broadcastTo S4096x256 (shapeCast S1x256 v23 shapeCasts_S256_S1x256) broadcasts_S1x256_S4096x256)

/-- The hidden layer: silu of the first layer. -/
def hidden (x : FVec Ideal S4096x384 .bf16) (v20 : FVec Ideal S384x256 .bf16) (v23 : FVec Ideal S256 .f32) : FVec Ideal S4096x256 .bf16 :=
  truncf .bf16 (mulf (pre1 x v20 v23) (logistic (pre1 x v20 v23))) bitsLt_bf16_f32

/-- The second layer with its bias, before the rows are split. -/
def pre2 (y : FVec Ideal S4096x256 .bf16) (v30 : FVec Ideal S256x196 .bf16) (v33 : FVec Ideal S196 .f32) : FVec Ideal S4096x196 .f32 :=
  addf (matmul dot_S4096x256_S256x196_S4096x196_1_0_0_1_n_n none y (shapeCast S256x196 v30 shapeCasts_S256x196_S256x196) (constant (F := Ideal) S4096x196 .f32 0x00000000#32))
    (broadcastTo S4096x196 (shapeCast S1x196 v33 shapeCasts_S196_S1x196) broadcasts_S1x196_S4096x196)

/-- The tile's result: [64, 64, 196]. -/
def outp (y : FVec Ideal S4096x256 .bf16) (v30 : FVec Ideal S256x196 .bf16) (v33 : FVec Ideal S196 .f32) : FVec Ideal S64x64x196 .bf16 :=
  truncf .bf16 (shapeCast S64x64x196 (pre2 y v30 v33) shapeCasts_S4096x196_S64x64x196) bitsLt_bf16_f32

/-- The payload is the three stages composed. -/
theorem pay_split (v5 v7 : FVec Ideal S64x128 .f32) (v8 : FVec Ideal S64x64x128 .f32) (v20 : FVec Ideal S384x256 .bf16)
    (v23 : FVec Ideal S256 .f32) (v30 : FVec Ideal S256x196 .bf16) (v33 : FVec Ideal S196 .f32) :
    k0_pay1 (F := Ideal) v5 v7 v8 v20 v23 v30 v33 = outp (hidden (feat v5 v7 v8) v20 v23) v30 v33 := rfl

/-! ## Three pieces joined along the last axis -/

section Cat
variable {α : Type} (x1 x2 x3 : S64x64x128.Idx → α)
  (hc : Shape.Concatenates [S64x64x128, S64x64x128, S64x64x128] S64x64x384 2) (a b : Fin 64) (f : Fin 384)

theorem cat_first (hf : f.val < 128) :
    concatenate S64x64x384 2 [⟨S64x64x128, x1⟩, ⟨S64x64x128, x2⟩, ⟨S64x64x128, x3⟩] hc (ix3 a b f) = x1 (ix3 a b ⟨f.val, hf⟩) :=
  concatenate_apply_piece (t := S64x64x384) (2 : Fin 3) [⟨S64x64x128, x1⟩, ⟨S64x64x128, x2⟩, ⟨S64x64x128, x3⟩] hc (ix3 a b f) 0 (by show (0 : ℕ) < 3; omega) S64x64x128 x1 rfl rfl 0 rfl
    (ix3 a b ⟨f.val, hf⟩)
    (fun bb hb => by
      match bb with
      | ⟨0, _⟩ => rfl
      | ⟨1, _⟩ => rfl
      | ⟨2, _⟩ => exact absurd (Fin.ext rfl) hb)
    (by show 0 + f.val = f.val; omega)

theorem cat_second (h1 : ¬ f.val < 128) (h2 : f.val < 256) :
    concatenate S64x64x384 2 [⟨S64x64x128, x1⟩, ⟨S64x64x128, x2⟩, ⟨S64x64x128, x3⟩] hc (ix3 a b f) = x2 (ix3 a b ⟨f.val - 128, by omega⟩) :=
  concatenate_apply_piece (t := S64x64x384) (2 : Fin 3) [⟨S64x64x128, x1⟩, ⟨S64x64x128, x2⟩, ⟨S64x64x128, x3⟩] hc (ix3 a b f) 1 (by show (1 : ℕ) < 3; omega) S64x64x128 x2 rfl rfl 128 rfl
    (ix3 a b ⟨f.val - 128, by omega⟩)
    (fun bb hb => by
      match bb with
      | ⟨0, _⟩ => rfl
      | ⟨1, _⟩ => rfl
      | ⟨2, _⟩ => exact absurd (Fin.ext rfl) hb)
    (by show 128 + (f.val - 128) = f.val; omega)

theorem cat_third (h1 : ¬ f.val < 128) (h2 : ¬ f.val < 256) :
    concatenate S64x64x384 2 [⟨S64x64x128, x1⟩, ⟨S64x64x128, x2⟩, ⟨S64x64x128, x3⟩] hc (ix3 a b f)
      = x3 (ix3 a b ⟨f.val - 256, by have := f.isLt; omega⟩) :=
  concatenate_apply_piece (t := S64x64x384) (2 : Fin 3) [⟨S64x64x128, x1⟩, ⟨S64x64x128, x2⟩, ⟨S64x64x128, x3⟩] hc (ix3 a b f) 2 (by show (2 : ℕ) < 3; omega) S64x64x128 x3 rfl rfl 256 rfl
    (ix3 a b ⟨f.val - 256, by have := f.isLt; omega⟩)
    (fun bb hb => by
      match bb with
      | ⟨0, _⟩ => rfl
      | ⟨1, _⟩ => rfl
      | ⟨2, _⟩ => exact absurd (Fin.ext rfl) hb)
    (by show 256 + (f.val - 256) = f.val; omega)

end Cat

/-! ## The stages at an index -/

/-- A [64, 128] array given a unit middle axis reads, at (a, u, g), the operand at (a, g). -/
theorem cast_mid (x : S64x128.Idx → EReal) (h : S64x128.ShapeCasts S64x1x128) (a : Fin 64) (u : Fin 1) (g : Fin 128) :
    shapeCast S64x1x128 x h (ix3 a u g) = x (ix2 a g) :=
  shapeCast_apply x h _ _ (by
    have hu : u.val = 0 := by omega
    rw [Shape.rowMajor_val_two, Shape.rowMajor_val_three]
    show a.val * 128 + g.val = (a.val * 1 + u.val) * 128 + g.val
    rw [hu]; omega)

/-- Row 64·a + b of the feature matrix is the a-th node row of the first load, the b-th of the second, and the edge row
    (a, b), laid end to end. -/
theorem feat_apply (v5 v7 : FVec Ideal S64x128 .f32) (v8 : FVec Ideal S64x64x128 .f32) (a b : Fin 64) (f : Fin 384) :
    feat v5 v7 v8 (ix2 (mergeIdx rows4096 a b) f)
      = row3 (fun g => v5 (ix2 a g)) (fun g => v7 (ix2 b g)) (fun g => v8 (ix3 a b g)) f := by
  unfold feat
  refine (shapeCast_abc_rc_apply _ shapeCasts_S64x64x384_S4096x384 rows4096 a b f).trans ?_
  by_cases h1 : f.val < 128
  · rw [row3_first _ _ _ f h1]
    refine (cat_first _ _ _ _ a b f h1).trans ?_
    refine (broadcastTo_apply _ broadcasts_S64x1x128_S64x64x128 (ix3 a b ⟨f.val, h1⟩) (ix3 a (0 : Fin 1) ⟨f.val, h1⟩) ?_).trans ?_
    · intro ax
      match ax with
      | ⟨0, _⟩ => rfl
      | ⟨1, _⟩ => rfl
      | ⟨2, _⟩ => rfl
    rw [shapeCast_self (shapeCast S64x1x128 (truncf .bf16 v5 bitsLt_bf16_f32) shapeCasts_S64x128_S64x1x128) shapeCasts_S64x1x128_S64x1x128]
    exact cast_mid _ _ a 0 ⟨f.val, h1⟩
  · by_cases h2 : f.val < 256
    · rw [row3_second _ _ _ f h1 h2]
      refine (cat_second _ _ _ _ a b f h1 h2).trans ?_
      refine (broadcastTo_apply _ broadcasts_S1x64x128_S64x64x128 (ix3 a b ⟨f.val - 128, by omega⟩) (ix3 (0 : Fin 1) b ⟨f.val - 128, by omega⟩) ?_).trans ?_
      · intro ax
        match ax with
        | ⟨0, _⟩ => rfl
        | ⟨1, _⟩ => rfl
        | ⟨2, _⟩ => rfl
      rw [shapeCast_self (shapeCast S1x64x128 (truncf .bf16 v7 bitsLt_bf16_f32) shapeCasts_S64x128_S1x64x128) shapeCasts_S1x64x128_S1x64x128]
      exact shapeCast_ab_1ab_apply _ _ 0 b ⟨f.val - 128, by omega⟩
    · rw [row3_third _ _ _ f h1 h2]
      exact cat_third _ _ _ _ a b f h1 h2

/-- The first layer at (r, h): the row's product with column h of the weight, plus the bias. -/
theorem pre1_apply (x : FVec Ideal S4096x384 .bf16) (v20 : FVec Ideal S384x256 .bf16) (v23 : FVec Ideal S256 .f32)
    (r : Fin 4096) (h : Fin 256) :
    pre1 x v20 v23 (ix2 r h) = (∑ f : Fin 384, x (ix2 r f) * v20 (ix2 f h)) + v23 (ix1 h) := by
  unfold pre1
  rw [coreAffine_eq (φ := .bf16) dot_S4096x384_S384x256_S4096x256_1_0_0_1_n_n (contr_rank dot_S4096x384_S384x256_S4096x256_1_0_0_1_n_n rfl) (contr_size dot_S4096x384_S384x256_S4096x256_1_0_0_1_n_n rfl) (lhs_row dot_S4096x384_S384x256_S4096x256_1_0_0_1_n_n rfl rfl) (lhs_col dot_S4096x384_S384x256_S4096x256_1_0_0_1_n_n rfl) (rhs_row dot_S4096x384_S384x256_S4096x256_1_0_0_1_n_n rfl rfl) (rhs_col dot_S4096x384_S384x256_S4096x256_1_0_0_1_n_n rfl rfl rfl rfl) broadcasts_S1x256_S4096x256 none x
      (shapeCast S384x256 v20 shapeCasts_S384x256_S384x256) (shapeCast S1x256 v23 shapeCasts_S256_S1x256),
    affine_ix2]
  unfold affineAt
  rw [shapeCast_self v20 shapeCasts_S384x256_S384x256, shapeCast_a_1a_apply v23 shapeCasts_S256_S1x256 0 h]

/-- The hidden layer at (r, h). -/
theorem hidden_apply (x : FVec Ideal S4096x384 .bf16) (v20 : FVec Ideal S384x256 .bf16) (v23 : FVec Ideal S256 .f32)
    (r : Fin 4096) (h : Fin 256) :
    hidden x v20 v23 (ix2 r h) = silu ((∑ f : Fin 384, x (ix2 r f) * v20 (ix2 f h)) + v23 (ix1 h)) := by
  show pre1 x v20 v23 (ix2 r h) * Ideal.logistic (pre1 x v20 v23 (ix2 r h)) = _
  rw [pre1_apply]
  rfl

/-- The second layer at (r, k). -/
theorem pre2_apply (y : FVec Ideal S4096x256 .bf16) (v30 : FVec Ideal S256x196 .bf16) (v33 : FVec Ideal S196 .f32)
    (r : Fin 4096) (k : Fin 196) :
    pre2 y v30 v33 (ix2 r k) = (∑ h : Fin 256, y (ix2 r h) * v30 (ix2 h k)) + v33 (ix1 k) := by
  unfold pre2
  rw [coreAffine_eq (φ := .bf16) dot_S4096x256_S256x196_S4096x196_1_0_0_1_n_n (contr_rank dot_S4096x256_S256x196_S4096x196_1_0_0_1_n_n rfl) (contr_size dot_S4096x256_S256x196_S4096x196_1_0_0_1_n_n rfl) (lhs_row dot_S4096x256_S256x196_S4096x196_1_0_0_1_n_n rfl rfl) (lhs_col dot_S4096x256_S256x196_S4096x196_1_0_0_1_n_n rfl) (rhs_row dot_S4096x256_S256x196_S4096x196_1_0_0_1_n_n rfl rfl) (rhs_col dot_S4096x256_S256x196_S4096x196_1_0_0_1_n_n rfl rfl rfl rfl) broadcasts_S1x196_S4096x196 none y
      (shapeCast S256x196 v30 shapeCasts_S256x196_S256x196) (shapeCast S1x196 v33 shapeCasts_S196_S1x196),
    affine_ix2]
  unfold affineAt
  rw [shapeCast_self v30 shapeCasts_S256x196_S256x196, shapeCast_a_1a_apply v33 shapeCasts_S196_S1x196 0 k]

/-- The tile's result at (a, b, k): row 64·a + b of the second layer at k. -/
theorem outp_apply (y : FVec Ideal S4096x256 .bf16) (v30 : FVec Ideal S256x196 .bf16) (v33 : FVec Ideal S196 .f32)
    (a b : Fin 64) (k : Fin 196) :
    outp y v30 v33 (ix3 a b k) = (∑ h : Fin 256, y (ix2 (mergeIdx rows4096 a b) h) * v30 (ix2 h k)) + v33 (ix1 k) := by
  show shapeCast S64x64x196 (pre2 y v30 v33) shapeCasts_S4096x196_S64x64x196 (ix3 a b k) = _
  rw [shapeCast_rc_abc_apply (pre2 y v30 v33) shapeCasts_S4096x196_S64x64x196 rows4096 a b k, pre2_apply]

/-- THE PAYLOAD AT AN INDEX: entry (a, b, k) of the tile is the perceptron's entry k of the row made of the a-th node row
    of the first load, the b-th of the second and the edge row (a, b). -/
theorem pay_apply (v5 v7 : FVec Ideal S64x128 .f32) (v8 : FVec Ideal S64x64x128 .f32) (v20 : FVec Ideal S384x256 .bf16)
    (v23 : FVec Ideal S256 .f32) (v30 : FVec Ideal S256x196 .bf16) (v33 : FVec Ideal S196 .f32) (a b : Fin 64) (k : Fin 196) :
    k0_pay1 (F := Ideal) v5 v7 v8 v20 v23 v30 v33 (ix3 a b k)
      = mlpEntry (row3 (fun g => v5 (ix2 a g)) (fun g => v7 (ix2 b g)) (fun g => v8 (ix3 a b g)))
          (fun f h => v20 (ix2 f h)) (fun h => v23 (ix1 h)) (fun h k => v30 (ix2 h k)) (fun k => v33 (ix1 k)) k := by
  rw [pay_split, outp_apply]
  unfold mlpEntry
  refine congrArg (· + v33 (ix1 k)) (Finset.sum_congr rfl fun h _ => ?_)
  rw [hidden_apply]
  refine congrArg (fun s => silu (s + v23 (ix1 h)) * v30 (ix2 h k)) (Finset.sum_congr rfl fun f _ => ?_)
  rw [feat_apply]

end Cert.KernelIdeal.Tile

end
-- ==== Proof.KernelIdealDense.lean ====
/-
  The kernel's output array after the run: the dense off-diagonal correction of every ordered pair of atoms.

  `dense n e W1 b1 W2 b2` is the [512, 512, 196] array whose entry (A, B, k) is the perceptron's entry k of the feature
  row of the ordered pair (A, B): node row A, node row B, edge row (A, B). Grid point (i, j) writes back the 64 × 64 tile
  of rows 64·i … and columns 64·j …: the tile's node rows are rows 64·i + a and 64·j + b of the whole node array (which
  is staged whole, so a "block" of it is the array itself, and the body cuts the rows out by its own offsets), and its
  edge rows are the block's own. The 8 × 8 tiles cover the array, so the array ends at `dense` of what the region found.
-/
import proofs.«124574_j70162585747869_2_alg».proof.Proof.KernelIdealBody
import proofs.«124574_j70162585747869_2_alg».proof.Proof.KernelIdealTile

set_option maxRecDepth 16384

noncomputable section

namespace Cert.KernelIdeal.Around

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.OffDiag

variable (m : (ℓ : Loc nD τ sig) → Buf (Elt Ideal) ℓ) (ρ : Dev nD → PrngReg)

/-- Entry (A, B, k) of the dense correction. -/
def denseAt (n : FVec Ideal S512x128 .f32) (e : FVec Ideal S512x512x128 .f32) (w1 : FVec Ideal S384x256 .bf16)
    (b1 : FVec Ideal S256 .f32) (w2 : FVec Ideal S256x196 .bf16) (b2 : FVec Ideal S196 .f32) (A B : Fin 512) (k : Fin 196) : EReal :=
  mlpEntry (row3 (fun g => n (ix2 A g)) (fun g => n (ix2 B g)) (fun g => e (ix3 A B g)))
    (fun f h => w1 (ix2 f h)) (fun h => b1 (ix1 h)) (fun h k => w2 (ix2 h k)) (fun k => b2 (ix1 k)) k

/-- The dense correction as a [512, 512, 196] array. -/
def dense (n : FVec Ideal S512x128 .f32) (e : FVec Ideal S512x512x128 .f32) (w1 : FVec Ideal S384x256 .bf16)
    (b1 : FVec Ideal S256 .f32) (w2 : FVec Ideal S256x196 .bf16) (b2 : FVec Ideal S196 .f32) : FVec Ideal S512x512x196 .bf16 :=
  fun i => denseAt n e w1 b1 w2 b2 ⟨(i 0).val, (i 0).isLt⟩ ⟨(i 1).val, (i 1).isLt⟩ ⟨(i 2).val, (i 2).isLt⟩

theorem dense_ix3 (n : FVec Ideal S512x128 .f32) (e : FVec Ideal S512x512x128 .f32) (w1 : FVec Ideal S384x256 .bf16)
    (b1 : FVec Ideal S256 .f32) (w2 : FVec Ideal S256x196 .bf16) (b2 : FVec Ideal S196 .f32) (A B : Fin 512) (k : Fin 196) :
    dense n e w1 b1 w2 b2 (ix3 A B k) = denseAt n e w1 b1 w2 b2 A B k := rfl

/-- Joined rows depend on their three pieces only through their values. -/
theorem row3_congr {r1 r2 r3 r1' r2' r3' : Fin 128 → EReal} (h1 : ∀ g, r1 g = r1' g) (h2 : ∀ g, r2 g = r2' g)
    (h3 : ∀ g, r3 g = r3' g) (f : Fin 384) : row3 r1 r2 r3 f = row3 r1' r2' r3' f := by
  rw [show r1 = r1' from funext h1, show r2 = r2' from funext h2, show r3 = r3' from funext h3]

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The printed index maps and the body's offsets, decided over the grid: the whole-array windows sit at block 0; the edge
    window moves with the output window; the body's two row offsets are 64 times the output's two leading block indices,
    which stay below 8. -/
theorem grid_facts : ∀ t : Fin cfg0.N,
    win0_0.index t (0 : Fin 2) = 0 ∧ win0_0.index t (1 : Fin 2) = 0
    ∧ win0_1.index t (0 : Fin 3) = win0_6.index t (0 : Fin 3) ∧ win0_1.index t (1 : Fin 3) = win0_6.index t (1 : Fin 3)
    ∧ win0_1.index t (2 : Fin 3) = 0 ∧ win0_6.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ k0_off1 (grid0.coords t) (0 : Fin 2) = 64 * win0_6.index t (0 : Fin 3) ∧ k0_off1 (grid0.coords t) (1 : Fin 2) = 0
    ∧ k0_off2 (grid0.coords t) (0 : Fin 2) = 64 * win0_6.index t (1 : Fin 3) ∧ k0_off2 (grid0.coords t) (1 : Fin 2) = 0
    ∧ win0_6.index t (0 : Fin 3) < 8 ∧ win0_6.index t (1 : Fin 3) < 8 :=
  (by decide +kernel : ∀ t : Fin grid0.N, _)

/-- Every tile of the 8 × 8 box is some point's. -/
theorem grid_onto : ∀ (q0 q1 : Fin 8), ∃ t : Fin cfg0.N, win0_6.index t = ![q0.val, q1.val, 0] :=
  (by decide +kernel : ∀ (q0 q1 : Fin 8), ∃ t : Fin grid0.N, win0_6.index t = ![q0.val, q1.val, 0])

/-- WHAT POINT `t` WRITES BACK is block `t` of the dense correction of the arrays as the region finds them. -/
theorem flushed6_eq (c : Dev nD) (t : Fin cfg0.N) :
    (dats m 0 c).flushed 6 t = ((cfg0.win 6).blk t).view.read (Elt Ideal) (dense (V m c main_arg0) (V m c main_arg1) (V m c main_v27) (V m c main_arg9) (V m c main_v28) (V m c main_arg11)) := by
  show (cfg0.win 6).cut (grid0.coords t) ((dats m 0 c).after 6 t) = _
  rw [after6]
  unfold outBlock
  rw [View.canon_unit_zero zeros3]
  simp only [View.ld_unit_zero (S := S64x64x128) zeros3, View.ld_unit_zero (S := S384x256) zeros2,
    View.ld_unit_zero (S := S256) zeros1, View.ld_unit_zero (S := S256x196) zeros2, View.ld_unit_zero (S := S196) zeros1]
  obtain ⟨e00, e01, e10, e11, e12, e62, e20, e21, e30, e40, e41, e50, o10, o11, o20, o21, l0, l1⟩ := grid_facts t
  funext y
  obtain ⟨a, b, k, rfl⟩ : ∃ (a b : Fin 64) (k : Fin 196), y = ix3 a b k := ⟨y 0, y 1, y 2, eq_ix3 y⟩
  refine (Tile.pay_apply _ _ _ _ _ _ _ a b k).trans ?_
  have hA : win0_6.index t (0 : Fin 3) * 64 + a.val < 512 := by have := a.isLt; omega
  have hB : win0_6.index t (1 : Fin 3) * 64 + b.val < 512 := by have := b.isLt; omega
  have hemb : ((cfg0.win 6).blk t).view.emb (ix3 a b k)
      = ix3 (⟨win0_6.index t (0 : Fin 3) * 64 + a.val, hA⟩ : Fin 512) (⟨win0_6.index t (1 : Fin 3) * 64 + b.val, hB⟩ : Fin 512) k := by
    funext ax; apply Fin.ext
    match ax with
    | ⟨0, _⟩ => show win0_6.index t (0 : Fin 3) * 64 + 1 * a.val = win0_6.index t (0 : Fin 3) * 64 + a.val; omega
    | ⟨1, _⟩ => show win0_6.index t (1 : Fin 3) * 64 + 1 * b.val = win0_6.index t (1 : Fin 3) * 64 + b.val; omega
    | ⟨2, _⟩ => show win0_6.index t (2 : Fin 3) * 196 + 1 * k.val = k.val; omega
  show _ = dense (V m c main_arg0) (V m c main_arg1) (V m c main_v27) (V m c main_arg9) (V m c main_v28) (V m c main_arg11)
      (((cfg0.win 6).blk t).view.emb (ix3 a b k))
  rw [hemb, dense_ix3]
  unfold denseAt
  refine mlpEntry_congr k (fun f => row3_congr ?_ ?_ ?_ f) ?_ ?_ ?_ ?_
  · -- the first load: rows 64·i … of the whole node array
    intro g
    show V m c main_arg0 (((cfg0.win 0).blk t).view.emb ((rowsI (grid0.coords t)).emb (ix2 a g))) = V m c main_arg0 (ix2 _ g)
    refine congrArg (V m c main_arg0) (funext fun ax => Fin.ext ?_)
    match ax with
    | ⟨0, _⟩ => show win0_0.index t (0 : Fin 2) * 512 + 1 * (k0_off1 (grid0.coords t) (0 : Fin 2) + 1 * a.val) = win0_6.index t (0 : Fin 3) * 64 + a.val; omega
    | ⟨1, _⟩ => show win0_0.index t (1 : Fin 2) * 128 + 1 * (k0_off1 (grid0.coords t) (1 : Fin 2) + 1 * g.val) = g.val; omega
  · -- the second load: rows 64·j …
    intro g
    show V m c main_arg0 (((cfg0.win 0).blk t).view.emb ((rowsJ (grid0.coords t)).emb (ix2 b g))) = V m c main_arg0 (ix2 _ g)
    refine congrArg (V m c main_arg0) (funext fun ax => Fin.ext ?_)
    match ax with
    | ⟨0, _⟩ => show win0_0.index t (0 : Fin 2) * 512 + 1 * (k0_off2 (grid0.coords t) (0 : Fin 2) + 1 * b.val) = win0_6.index t (1 : Fin 3) * 64 + b.val; omega
    | ⟨1, _⟩ => show win0_0.index t (1 : Fin 2) * 128 + 1 * (k0_off2 (grid0.coords t) (1 : Fin 2) + 1 * g.val) = g.val; omega
  · -- the tile's own edge rows
    intro g
    show V m c main_arg1 (((cfg0.win 1).blk t).view.emb (ix3 a b g)) = V m c main_arg1 (ix3 _ _ g)
    refine congrArg (V m c main_arg1) (funext fun ax => Fin.ext ?_)
    match ax with
    | ⟨0, _⟩ => show win0_1.index t (0 : Fin 3) * 64 + 1 * a.val = win0_6.index t (0 : Fin 3) * 64 + a.val; omega
    | ⟨1, _⟩ => show win0_1.index t (1 : Fin 3) * 64 + 1 * b.val = win0_6.index t (1 : Fin 3) * 64 + b.val; omega
    | ⟨2, _⟩ => show win0_1.index t (2 : Fin 3) * 128 + 1 * g.val = g.val; omega
  · intro f h
    show V m c main_v27 (((cfg0.win 2).blk t).view.emb (ix2 f h)) = V m c main_v27 (ix2 f h)
    refine congrArg (V m c main_v27) (funext fun ax => Fin.ext ?_)
    match ax with
    | ⟨0, _⟩ => show win0_2.index t (0 : Fin 2) * 384 + 1 * f.val = f.val; omega
    | ⟨1, _⟩ => show win0_2.index t (1 : Fin 2) * 256 + 1 * h.val = h.val; omega
  · intro h
    show V m c main_arg9 (((cfg0.win 3).blk t).view.emb (ix1 h)) = V m c main_arg9 (ix1 h)
    refine congrArg (V m c main_arg9) (funext fun ax => Fin.ext ?_)
    match ax with
    | ⟨0, _⟩ => show win0_3.index t (0 : Fin 1) * 256 + 1 * h.val = h.val; omega
  · intro h
    show V m c main_v28 (((cfg0.win 4).blk t).view.emb (ix2 h k)) = V m c main_v28 (ix2 h k)
    refine congrArg (V m c main_v28) (funext fun ax => Fin.ext ?_)
    match ax with
    | ⟨0, _⟩ => show win0_4.index t (0 : Fin 2) * 256 + 1 * h.val = h.val; omega
    | ⟨1, _⟩ => show win0_4.index t (1 : Fin 2) * 196 + 1 * k.val = k.val; omega
  · show V m c main_arg11 (((cfg0.win 5).blk t).view.emb (ix1 k)) = V m c main_arg11 (ix1 k)
    refine congrArg (V m c main_arg11) (funext fun ax => Fin.ext ?_)
    match ax with
    | ⟨0, _⟩ => show win0_5.index t (0 : Fin 1) * 196 + 1 * k.val = k.val; omega

/-- An index of the array is in point `t`'s block iff each coordinate is in the block's range on its axis. -/
theorem mem_tile (t : Fin cfg0.N) (i : S512x512x196.Idx) :
    i ∈ ((cfg0.win 6).blk t).view.set ↔ ∀ a : Fin 3, win0_6.index t a * S64x64x196.size a ≤ (i a).val ∧ (i a).val < win0_6.index t a * S64x64x196.size a + S64x64x196.size a := by
  show i ∈ ((View.whole main_v29).slice (win0_6.rect t)).set ↔ _
  rw [View.set_slice_whole, Rect.mem_set_unit]
  exact Iff.rfl

/-- The 8 × 8 tiles cover the array: entry (A, B, k) lies in the tile of the point whose block indices are (A / 64, B / 64, 0). -/
theorem tiles_cover (i : S512x512x196.Idx) :
    ∃ t : Fin cfg0.N, (cfg0.win 6).flush t = true ∧ i ∈ ((cfg0.win 6).blk t).view.set := by
  have hi0 : (i 0).val < 512 := (i 0).isLt
  have hi1 : (i 1).val < 512 := (i 1).isLt
  have hi2 : (i 2).val < 196 := (i 2).isLt
  obtain ⟨t, ht⟩ := grid_onto ⟨(i 0).val / 64, by omega⟩ ⟨(i 1).val / 64, by omega⟩
  have q0 : win0_6.index t (0 : Fin 3) = (i 0).val / 64 := congrFun ht 0
  have q1 : win0_6.index t (1 : Fin 3) = (i 1).val / 64 := congrFun ht 1
  have q2 : win0_6.index t (2 : Fin 3) = 0 := congrFun ht 2
  refine ⟨t, flush0_6 t, ?_⟩
  rw [mem_tile]
  intro a
  match a with
  | ⟨0, _⟩ => show win0_6.index t (0 : Fin 3) * 64 ≤ (i 0).val ∧ (i 0).val < win0_6.index t (0 : Fin 3) * 64 + 64; omega
  | ⟨1, _⟩ => show win0_6.index t (1 : Fin 3) * 64 ≤ (i 1).val ∧ (i 1).val < win0_6.index t (1 : Fin 3) * 64 + 64; omega
  | ⟨2, _⟩ => show win0_6.index t (2 : Fin 3) * 196 ≤ (i 2).val ∧ (i 2).val < win0_6.index t (2 : Fin 3) * 196 + 196; omega

/-- THE OUTPUT ARRAY AFTER THE RUN is the dense correction of the arrays as the region finds them. -/
theorem final6 (c : Dev nD) :
    (dats m 0 c).arrAt 6 cfg0.N = dense (V m c main_arg0) (V m c main_arg1) (V m c main_v27) (V m c main_arg9) (V m c main_v28) (V m c main_arg11) :=
  (dats m 0 c).arrAt_eq_of_cover 6 _ (fun t _ => flushed6_eq m c t) tiles_cover

end Cert.KernelIdeal.Around

end
-- ==== Proof.LibSegmentSum.lean ====
/-
  Segment sums over the edges of a graph: gathers of whole rows and of single elements, read at an index, an
  accumulating scatter of rows, and the law that a nonnegative real factor shared by every edge landing on a node
  may be taken out of the node's sum.
-/
import Idealize.ShloMosaic.PureOps.Ideal
import Idealize.ShloMosaic.PureOps.ShapeOps
import Idealize.ShloMosaic.PureOps.Contract
import Idealize.ShloMosaic.Lib.ValueIdx

noncomputable section

open scoped BigOperators

namespace Idealize.ShloMosaic.SegmentSum

open Idealize.ShloMosaic Idealize.ShloMosaic.ValueIdx

/-! ## The dimension numbers -/

/-- Whole rows of a table `[N, C]` taken at `E` start indices (an array `[E, 1]`): result row `e` is the table's row
    at the `e`-th start index. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Single elements of a table `[N]` taken at `E` start indices (an array `[E, 1]`). -/
abbrev elemGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Rows `[E, C]` accumulated into a table `[N, C]` at `E` start indices (an array `[E, 1]`): update row `e` goes to
    the table's row at the `e`-th start index. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-! ## The gathers read at an index -/

/-- A start index read signed and clamped into `[0, N − 1]`. -/
def clampRow (N : Nat) (hN : 0 < N) {w : Nat} (v : BitVec w) : Fin N := ⟨min v.toInt.toNat (N - 1), by omega⟩

section Gather
variable {α : Type} {N E C w : Nat}

private theorem fin2_one_ne_zero : ¬((1 : Fin 2) = 0) := by decide

/-- The row gather at `(e, c)`: the table at the `e`-th start index (signed, clamped) and column `c`. -/
theorem rowGather_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (j : (⟨2, ![E, C]⟩ : Shape).Idx) :
    Host.gather (rowGatherDims N E C wf) x idx j = x (ix2 (clampRow N hN (idx (ix2 (j 0) 0))) (j 1)) := by
  unfold Host.gather
  congr 1
  funext a
  refine Fin.ext ?_
  have hsi : (rowGatherDims N E C wf).siIdx j ⟨List.idxOf (0 : Fin 2) (rowGatherDims N E C wf).startIndexMap,
      List.idxOf_lt_length_iff.2 (List.mem_singleton.mpr rfl)⟩ = ix2 (j 0) 0 := by
    funext b; refine Fin.ext ?_
    match b with
    | ⟨0, _⟩ => rfl
    | ⟨1, _⟩ => rfl
  match a with
  | ⟨0, _⟩ =>
    show (rowGatherDims N E C wf).start j idx 0 + (rowGatherDims N E C wf).batchCoord j 0
      + (rowGatherDims N E C wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    rw [hsi]
    rfl
  | ⟨1, _⟩ =>
    show (rowGatherDims N E C wf).start j idx 1 + (rowGatherDims N E C wf).batchCoord j 1
      + (rowGatherDims N E C wf).offCoord j 1 = _
    rw [GatherDims.batchCoord_eq_zero _ _ _ List.not_mem_nil]
    have h1 : (1 : Fin 2) ∉ (rowGatherDims N E C wf).startIndexMap :=
      fun h => absurd (List.mem_singleton.mp h) fin2_one_ne_zero
    have h2 : (1 : Fin 2) ∈ (rowGatherDims N E C wf).sKept :=
      (GatherDims.mem_sKept _ _).2 ⟨fun h => absurd (List.mem_singleton.mp h) fin2_one_ne_zero, List.not_mem_nil⟩
    unfold GatherDims.start GatherDims.offCoord
    rw [dif_neg h1, dif_pos h2]
    simp only [Nat.add_zero, Nat.zero_add]
    rfl

/-- The element gather at `e`: the table at the `e`-th start index (signed, clamped). -/
theorem elemGather_apply (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : (⟨1, ![E]⟩ : Shape).Idx) :
    Host.gather (elemGatherDims N E wf) x idx e = x (ix1 (clampRow N hN (idx (ix2 (e 0) 0)))) := by
  unfold Host.gather
  congr 1
  funext a
  obtain rfl : a = 0 := Subsingleton.elim _ _
  refine Fin.ext ?_
  show (elemGatherDims N E wf).start e idx 0 + (elemGatherDims N E wf).batchCoord e 0
    + (elemGatherDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemGatherDims N E wf).startIndexMap from List.mem_singleton.mpr rfl)]
  have hsi : (elemGatherDims N E wf).siIdx e ⟨List.idxOf (0 : Fin 1) (elemGatherDims N E wf).startIndexMap,
      List.idxOf_lt_length_iff.2 (List.mem_singleton.mpr rfl)⟩ = ix2 (e 0) 0 := by
    funext b; refine Fin.ext ?_
    match b with
    | ⟨0, _⟩ => rfl
    | ⟨1, _⟩ => rfl
  rw [hsi]
  rfl

/-- An update row that lands on element `i` has its start index, read signed, equal to `i`'s row: on the row axis
    the landing place is the start index plus a window coordinate that is zero there. -/
theorem rowScatter_lands (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx)
    (h : (rowScatterDims N E C wf).resultIdx? j idx = some i) :
    (idx (ix2 (j 0) 0)).toInt = ((i 0).val : Int) := by
  have hs : (rowScatterDims N E C wf).start j idx 0 = (idx (ix2 (j 0) 0)).toInt := by
    unfold ScatterDims.start
    rw [dif_pos (show (0 : Fin 2) ∈ (rowScatterDims N E C wf).scatterDimsToOperandDims from List.mem_singleton.mpr rfl)]
    have hsi : (rowScatterDims N E C wf).siIdx j ⟨List.idxOf (0 : Fin 2) (rowScatterDims N E C wf).scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  have hw : (rowScatterDims N E C wf).window j 0 = 0 := by
    unfold ScatterDims.window
    rw [dif_neg]
    intro hmem
    have := (List.mem_filter.mp hmem).2
    simp at this
  unfold ScatterDims.resultIdx? at h
  split at h
  · rename_i hall
    have hi := Option.some.inj h
    have h0 : ((rowScatterDims N E C wf).start j idx 0 + ((rowScatterDims N E C wf).window j 0 : Int)).toNat = (i 0).val := by
      rw [← hi]
    have hnn := (hall 0).1
    rw [hs, hw] at h0 hnn
    omega
  · exact absurd h (by simp)

end Gather

/-! ## The law: a nonnegative real factor shared by the edges landing on a node leaves the node's sum -/

section Law
variable {N E C : Nat}

/-- A nonnegative real factor goes inside any finite sum of extended reals (no finiteness of the terms is needed:
    a nonnegative real never turns an infinity round, so it distributes over every sum of two). -/
theorem sum_mul_coe_of_nonneg {ι : Type} (S : Finset ι) (a : ι → EReal) (r : ℝ) (hr : 0 ≤ r) :
    (∑ j ∈ S, a j) * (r : EReal) = ∑ j ∈ S, a j * (r : EReal) := by
  classical
  induction S using Finset.induction_on with
  | empty => simp
  | insert k S hk ih =>
    rw [Finset.sum_insert hk, Finset.sum_insert hk,
      EReal.right_distrib_of_nonneg_of_ne_top (EReal.coe_nonneg.mpr hr) (EReal.coe_ne_top r), ih]

/-- THE LAW. Each node `i` sums the messages of the edges whose target is `i`. Scaling every message by the
    source's and the target's factor inside the sum is the same as summing messages scaled by the source's factor only
    and scaling the finished sum by `i`'s factor: an edge that lands on `i` has target `i`, so its target factor
    is `i`'s, and that factor, a nonnegative real, leaves the sum. The target column is read twice, once by the
    scatter (`colR`, signed and not clamped) and once by a gather (`colW`, signed and clamped): the two arrays need
    agree only where `colR`'s entry is a row of the table, the only edges that land anywhere. -/
theorem scatter_gather_scale (hN : 0 < N)
    (wfg : GatherDims.WF ⟨2, ![N, C]⟩ ⟨2, ![E, 1]⟩ ⟨2, ![E, C]⟩ [1] [0] [] [0] [] 1 ![1, C])
    (wfe : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (H : (⟨2, ![N, C]⟩ : Shape).Idx → EReal) (D : (⟨1, ![N]⟩ : Shape).Idx → EReal)
    (hD : ∀ v, ∃ r : ℝ, 0 ≤ r ∧ D v = (r : EReal))
    (rowI colW colR : IVec ⟨2, ![E, 1]⟩ 32)
    (hwrap : ∀ e, 0 ≤ (colR e).toInt → (colR e).toInt < (N : Int) → colW e = colR e)
    (i : (⟨2, ![N, C]⟩ : Shape).Idx) :
    Ideal.hostScatterAdd (rowScatterDims N E C wfs) (fun _ => 0) colR
        (fun j => Host.gather (rowGatherDims N E C wfg) H rowI j *
          (Host.gather (elemGatherDims N E wfe) D rowI (ix1 (j 0)) *
            Host.gather (elemGatherDims N E wfe) D colW (ix1 (j 0)))) i
      = Ideal.hostScatterAdd (rowScatterDims N E C wfs) (fun _ => 0) colR
          (Host.gather (rowGatherDims N E C wfg) (fun v => H v * D (ix1 (v 0))) rowI) i * D (ix1 (i 0)) := by
  obtain ⟨r, hr, hDr⟩ := hD (ix1 (i 0))
  unfold Ideal.hostScatterAdd
  simp only [zero_add]
  rw [hDr, sum_mul_coe_of_nonneg _ _ r hr]
  refine Finset.sum_congr rfl fun j hj => ?_
  have hland := (Finset.mem_filter.mp hj).2
  have hrow := rowScatter_lands wfs colR j i hland
  have hlt : (i 0).val < N := idx2_lt0 i
  have hW : colW (ix2 (j 0) 0) = colR (ix2 (j 0) 0) :=
    hwrap _ (by rw [hrow]; exact Int.natCast_nonneg _) (by rw [hrow]; exact_mod_cast hlt)
  have hclamp : clampRow N hN (colW (ix2 (j 0) 0)) = i 0 := by
    apply Fin.ext
    show min (colW (ix2 (j 0) 0)).toInt.toNat (N - 1) = (i 0).val
    rw [hW, hrow, Int.toNat_natCast]
    omega
  rw [rowGather_apply hN, rowGather_apply hN, elemGather_apply hN, elemGather_apply hN]
  show _ * (_ * D (ix1 (clampRow N hN (colW (ix2 (j 0) 0))))) = _
  rw [hclamp, hDr, mul_assoc]
  rfl

end Law

end Idealize.ShloMosaic.SegmentSum

end
-- ==== Proof.LibPairGather.lean ====
/-
  General lemma: a gather of whole rows out of a rank-3 table by two-component start indices, read at an index.

  The table has shape [N, M, C]; the start indices are an [E, 2] array; the gather collapses the two leading axes and
  keeps the last one whole, so result row `e` is the table's row at (first component of start index `e`, second
  component of start index `e`), each component read signed and clamped into its axis. This is how
  `table[idx0, idx1]` with two index vectors lowers. Nothing here mentions a program: the extents are variables.
-/
import proofs.«124574_j70162585747869_2_alg».proof.Proof.LibSegmentSum

noncomputable section

namespace Cert.LibPairGather

open Idealize.ShloMosaic Idealize.ShloMosaic.ValueIdx Idealize.ShloMosaic.SegmentSum

/-- Whole rows of a table `[N, M, C]` taken at `E` two-component start indices (an array `[E, 2]`). -/
abbrev pairGatherDims (N M E C : Nat)
    (wf : GatherDims.WF ⟨3, ![N, M, C]⟩ ⟨2, ![E, 2]⟩ ⟨2, ![E, C]⟩ [1] [0, 1] [] [0, 1] [] 1 ![1, 1, C]) :
    GatherDims ⟨3, ![N, M, C]⟩ ⟨2, ![E, 2]⟩ ⟨2, ![E, C]⟩ where
  offsetDims := [1]
  collapsedSliceDims := [0, 1]
  operandBatchingDims := []
  startIndicesBatchingDims := []
  startIndexMap := [0, 1]
  indexVectorDim := 1
  sliceSizes := ![1, 1, C]
  wf := wf

variable {α : Type} {N M E C w : Nat}

private theorem fin3_two_ne_zero : ¬((2 : Fin 3) = 0) := by decide
private theorem fin3_two_ne_one : ¬((2 : Fin 3) = 1) := by decide

/-- The gather at `(e, c)`: the table at the two components of the `e`-th start index (each signed, clamped into
    its axis) and column `c`. -/
theorem pairGather_apply (hN : 0 < N) (hM : 0 < M)
    (wf : GatherDims.WF ⟨3, ![N, M, C]⟩ ⟨2, ![E, 2]⟩ ⟨2, ![E, C]⟩ [1] [0, 1] [] [0, 1] [] 1 ![1, 1, C])
    (x : (⟨3, ![N, M, C]⟩ : Shape).Idx → α) (idx : IVec ⟨2, ![E, 2]⟩ w) (j : (⟨2, ![E, C]⟩ : Shape).Idx) :
    Host.gather (pairGatherDims N M E C wf) x idx j
      = x (ix3 (clampRow N hN (idx (ix2 (j 0) 0))) (clampRow M hM (idx (ix2 (j 0) 1))) (j 1)) := by
  unfold Host.gather
  congr 1
  funext a
  refine Fin.ext ?_
  have hm0 : (0 : Fin 3) ∈ (pairGatherDims N M E C wf).startIndexMap := List.mem_cons_self
  have hm1 : (1 : Fin 3) ∈ (pairGatherDims N M E C wf).startIndexMap := List.mem_cons_of_mem _ (List.mem_singleton.mpr rfl)
  have hc0 : (0 : Fin 3) ∈ (pairGatherDims N M E C wf).collapsedSliceDims := List.mem_cons_self
  have hc1 : (1 : Fin 3) ∈ (pairGatherDims N M E C wf).collapsedSliceDims := List.mem_cons_of_mem _ (List.mem_singleton.mpr rfl)
  have hsi0 : (pairGatherDims N M E C wf).siIdx j ⟨List.idxOf (0 : Fin 3) (pairGatherDims N M E C wf).startIndexMap,
      List.idxOf_lt_length_iff.2 hm0⟩ = ix2 (j 0) 0 := by
    funext b; refine Fin.ext ?_
    match b with
    | ⟨0, _⟩ => rfl
    | ⟨1, _⟩ => rfl
  have hsi1 : (pairGatherDims N M E C wf).siIdx j ⟨List.idxOf (1 : Fin 3) (pairGatherDims N M E C wf).startIndexMap,
      List.idxOf_lt_length_iff.2 hm1⟩ = ix2 (j 0) 1 := by
    funext b; refine Fin.ext ?_
    match b with
    | ⟨0, _⟩ => rfl
    | ⟨1, _⟩ => rfl
  match a with
  | ⟨0, _⟩ =>
    show (pairGatherDims N M E C wf).start j idx 0 + (pairGatherDims N M E C wf).batchCoord j 0
      + (pairGatherDims N M E C wf).offCoord j 0 = _
    rw [GatherDims.batchCoord_eq_zero _ _ _ List.not_mem_nil,
      GatherDims.offCoord_eq_zero _ _ _ (fun h => ((GatherDims.mem_sKept _ _).mp h).1 hc0)]
    simp only [Nat.add_zero]
    unfold GatherDims.start
    rw [dif_pos hm0]
    rw [hsi0]
    rfl
  | ⟨1, _⟩ =>
    show (pairGatherDims N M E C wf).start j idx 1 + (pairGatherDims N M E C wf).batchCoord j 1
      + (pairGatherDims N M E C wf).offCoord j 1 = _
    rw [GatherDims.batchCoord_eq_zero _ _ _ List.not_mem_nil,
      GatherDims.offCoord_eq_zero _ _ _ (fun h => ((GatherDims.mem_sKept _ _).mp h).1 hc1)]
    simp only [Nat.add_zero]
    unfold GatherDims.start
    rw [dif_pos hm1]
    rw [hsi1]
    rfl
  | ⟨2, _⟩ =>
    show (pairGatherDims N M E C wf).start j idx 2 + (pairGatherDims N M E C wf).batchCoord j 2
      + (pairGatherDims N M E C wf).offCoord j 2 = _
    rw [GatherDims.batchCoord_eq_zero _ _ _ List.not_mem_nil]
    have h1 : (2 : Fin 3) ∉ (pairGatherDims N M E C wf).startIndexMap := fun h => by
      rcases List.mem_cons.mp h with h | h
      · exact absurd h fin3_two_ne_zero
      · exact absurd (List.mem_singleton.mp h) fin3_two_ne_one
    have h2 : (2 : Fin 3) ∈ (pairGatherDims N M E C wf).sKept :=
      (GatherDims.mem_sKept _ _).2 ⟨fun h => by
        rcases List.mem_cons.mp h with h | h
        · exact absurd h fin3_two_ne_zero
        · exact absurd (List.mem_singleton.mp h) fin3_two_ne_one, List.not_mem_nil⟩
    unfold GatherDims.start GatherDims.offCoord
    rw [dif_neg h1, dif_pos h2]
    simp only [Nat.add_zero, Nat.zero_add]
    rfl

end Cert.LibPairGather

end
-- ==== Proof.ReferenceOff.lean ====
/-
  The reference's off-diagonal correction, read at an index.

  For the p-th listed pair the reference gathers node row `cl (wrap pair_i p)`, node row `cl (wrap pair_j p)` and the edge
  row at those two positions — `wrap` adds 512 to a negative start index (python's indexing from the end) and `cl` is
  the gather's own clamp of a start index into 0 … 511 —, lays them end to end, and applies the two dense layers with the
  sigmoid-weighted linear unit between them, the logistic function spelt as 1 / (1 + e^(−z)). Entry (p, k) is therefore
  the perceptron's entry k of that row. The generated module names every stage; here the stages that module does not read
  (the gathers and the joins) are read by the general gather and concatenation lemmas, and the two layers by the general
  dense-layer lemma.
-/
import proofs.«124574_j70162585747869_2_alg».proof.Proof.Gen.ReferenceIdeal.Read
import proofs.«124574_j70162585747869_2_alg».proof.Proof.OffDiagSpec
import proofs.«124574_j70162585747869_2_alg».proof.Proof.LibAffine
import proofs.«124574_j70162585747869_2_alg».proof.Proof.LibPlainDot
import proofs.«124574_j70162585747869_2_alg».proof.Proof.LibSegmentSum
import proofs.«124574_j70162585747869_2_alg».proof.Proof.LibPairGather
import Idealize.ShloMosaic.Lib.ValueLayout
import Idealize.ShloMosaic.Lib.Pipeline.Value

set_option maxRecDepth 16384

noncomputable section

namespace Cert.ReferenceIdeal.Off

open Idealize.ShloMosaic Idealize.ShloMosaic.ValueIdx Idealize.ShloMosaic.SegmentSum
open Cert.ReferenceIdeal Cert.ReferenceIdeal.Gen Cert.ReferenceIdeal.Read
open Cert.OffDiag Cert.LibAffine Cert.LibPlainDot Cert.LibPairGather

/-! ## Small layout facts over variable extents -/

section Layout
variable {α : Type}

/-- A vector laid out as a column reads, at (p, u), its entry p. -/
theorem bcast_col {a : ℕ} (hd : (⟨1, ![a]⟩ : Shape).BroadcastsInDim ⟨2, ![a, 1]⟩ ![0]) (x : (⟨1, ![a]⟩ : Shape).Idx → α)
    (p : Fin a) (u : Fin 1) : broadcastInDim ⟨2, ![a, 1]⟩ ![0] hd x (ix2 p u) = x (ix1 p) :=
  broadcastInDim_apply ![0] hd x (ix2 p u) (ix1 p) (fun ax => by
    match ax with
    | ⟨0, _⟩ =>
      show p.val = if a = 1 then 0 else p.val
      split
      · have := p.isLt; omega
      · rfl)

/-- A vector laid out as a row reads, at (u, j), its entry j. -/
theorem bcast_row {n : ℕ} (hd : (⟨1, ![n]⟩ : Shape).BroadcastsInDim ⟨2, ![1, n]⟩ ![1]) (x : (⟨1, ![n]⟩ : Shape).Idx → α)
    (u : Fin 1) (j : Fin n) : broadcastInDim ⟨2, ![1, n]⟩ ![1] hd x (ix2 u j) = x (ix1 j) :=
  broadcastInDim_apply ![1] hd x (ix2 u j) (ix1 j) (fun ax => by
    match ax with
    | ⟨0, _⟩ =>
      show j.val = if n = 1 then 0 else j.val
      split
      · have := j.isLt; omega
      · rfl)

/-- Two columns side by side: column 0 is the first, column 1 the second. -/
theorem cols_first {a : ℕ} (u v : (⟨2, ![a, 1]⟩ : Shape).Idx → α)
    (hc : Shape.Concatenates [(⟨2, ![a, 1]⟩ : Shape), ⟨2, ![a, 1]⟩] ⟨2, ![a, 2]⟩ 1) (p : Fin a) :
    concatenate ⟨2, ![a, 2]⟩ 1 [⟨⟨2, ![a, 1]⟩, u⟩, ⟨⟨2, ![a, 1]⟩, v⟩] hc (ix2 p (0 : Fin 2)) = u (ix2 p (0 : Fin 1)) :=
  concatenate_apply_piece (t := ⟨2, ![a, 2]⟩) (1 : Fin 2) [⟨⟨2, ![a, 1]⟩, u⟩, ⟨⟨2, ![a, 1]⟩, v⟩] hc (ix2 p (0 : Fin 2)) 0 (by show (0 : ℕ) < 2; omega) ⟨2, ![a, 1]⟩ u rfl rfl 0 rfl
    (ix2 p (0 : Fin 1))
    (fun bb hb => by
      match bb with
      | ⟨0, _⟩ => rfl
      | ⟨1, _⟩ => exact absurd (Fin.ext rfl) hb)
    rfl

theorem cols_second {a : ℕ} (u v : (⟨2, ![a, 1]⟩ : Shape).Idx → α)
    (hc : Shape.Concatenates [(⟨2, ![a, 1]⟩ : Shape), ⟨2, ![a, 1]⟩] ⟨2, ![a, 2]⟩ 1) (p : Fin a) :
    concatenate ⟨2, ![a, 2]⟩ 1 [⟨⟨2, ![a, 1]⟩, u⟩, ⟨⟨2, ![a, 1]⟩, v⟩] hc (ix2 p (1 : Fin 2)) = v (ix2 p (0 : Fin 1)) :=
  concatenate_apply_piece (t := ⟨2, ![a, 2]⟩) (1 : Fin 2) [⟨⟨2, ![a, 1]⟩, u⟩, ⟨⟨2, ![a, 1]⟩, v⟩] hc (ix2 p (1 : Fin 2)) 1 (by show (1 : ℕ) < 2; omega) ⟨2, ![a, 1]⟩ v rfl rfl 1 rfl
    (ix2 p (0 : Fin 1))
    (fun bb hb => by
      match bb with
      | ⟨0, _⟩ => rfl
      | ⟨1, _⟩ => exact absurd (Fin.ext rfl) hb)
    rfl

/-- Three 128-wide matrices side by side. -/
theorem rows_first {a : ℕ} (x1 x2 x3 : (⟨2, ![a, 128]⟩ : Shape).Idx → α)
    (hc : Shape.Concatenates [(⟨2, ![a, 128]⟩ : Shape), ⟨2, ![a, 128]⟩, ⟨2, ![a, 128]⟩] ⟨2, ![a, 384]⟩ 1) (p : Fin a) (f : Fin 384)
    (hf : f.val < 128) :
    concatenate ⟨2, ![a, 384]⟩ 1 [⟨⟨2, ![a, 128]⟩, x1⟩, ⟨⟨2, ![a, 128]⟩, x2⟩, ⟨⟨2, ![a, 128]⟩, x3⟩] hc (ix2 p f) = x1 (ix2 p ⟨f.val, hf⟩) :=
  concatenate_apply_piece (t := ⟨2, ![a, 384]⟩) (1 : Fin 2) [⟨⟨2, ![a, 128]⟩, x1⟩, ⟨⟨2, ![a, 128]⟩, x2⟩, ⟨⟨2, ![a, 128]⟩, x3⟩] hc (ix2 p f) 0 (by show (0 : ℕ) < 3; omega) ⟨2, ![a, 128]⟩ x1 rfl rfl 0 rfl
    (ix2 p ⟨f.val, hf⟩)
    (fun bb hb => by
      match bb with
      | ⟨0, _⟩ => rfl
      | ⟨1, _⟩ => exact absurd (Fin.ext rfl) hb)
    (by show 0 + f.val = f.val; omega)

theorem rows_second {a : ℕ} (x1 x2 x3 : (⟨2, ![a, 128]⟩ : Shape).Idx → α)
    (hc : Shape.Concatenates [(⟨2, ![a, 128]⟩ : Shape), ⟨2, ![a, 128]⟩, ⟨2, ![a, 128]⟩] ⟨2, ![a, 384]⟩ 1) (p : Fin a) (f : Fin 384)
    (h1 : ¬ f.val < 128) (h2 : f.val < 256) :
    concatenate ⟨2, ![a, 384]⟩ 1 [⟨⟨2, ![a, 128]⟩, x1⟩, ⟨⟨2, ![a, 128]⟩, x2⟩, ⟨⟨2, ![a, 128]⟩, x3⟩] hc (ix2 p f)
      = x2 (ix2 p ⟨f.val - 128, by omega⟩) :=
  concatenate_apply_piece (t := ⟨2, ![a, 384]⟩) (1 : Fin 2) [⟨⟨2, ![a, 128]⟩, x1⟩, ⟨⟨2, ![a, 128]⟩, x2⟩, ⟨⟨2, ![a, 128]⟩, x3⟩] hc (ix2 p f) 1 (by show (1 : ℕ) < 3; omega) ⟨2, ![a, 128]⟩ x2 rfl rfl 128 rfl
    (ix2 p ⟨f.val - 128, by omega⟩)
    (fun bb hb => by
      match bb with
      | ⟨0, _⟩ => rfl
      | ⟨1, _⟩ => exact absurd (Fin.ext rfl) hb)
    (by show 128 + (f.val - 128) = f.val; omega)

theorem rows_third {a : ℕ} (x1 x2 x3 : (⟨2, ![a, 128]⟩ : Shape).Idx → α)
    (hc : Shape.Concatenates [(⟨2, ![a, 128]⟩ : Shape), ⟨2, ![a, 128]⟩, ⟨2, ![a, 128]⟩] ⟨2, ![a, 384]⟩ 1) (p : Fin a) (f : Fin 384)
    (h1 : ¬ f.val < 128) (h2 : ¬ f.val < 256) :
    concatenate ⟨2, ![a, 384]⟩ 1 [⟨⟨2, ![a, 128]⟩, x1⟩, ⟨⟨2, ![a, 128]⟩, x2⟩, ⟨⟨2, ![a, 128]⟩, x3⟩] hc (ix2 p f)
      = x3 (ix2 p ⟨f.val - 256, by have := f.isLt; omega⟩) :=
  concatenate_apply_piece (t := ⟨2, ![a, 384]⟩) (1 : Fin 2) [⟨⟨2, ![a, 128]⟩, x1⟩, ⟨⟨2, ![a, 128]⟩, x2⟩, ⟨⟨2, ![a, 128]⟩, x3⟩] hc (ix2 p f) 2 (by show (2 : ℕ) < 3; omega) ⟨2, ![a, 128]⟩ x3 rfl rfl 256 rfl
    (ix2 p ⟨f.val - 256, by have := f.isLt; omega⟩)
    (fun bb hb => by
      match bb with
      | ⟨0, _⟩ => rfl
      | ⟨1, _⟩ => exact absurd (Fin.ext rfl) hb)
    (by show 256 + (f.val - 256) = f.val; omega)

end Layout

/-! ## The start indices -/

/-- A start index with a negative value moved up by 512 (indexing from the end), as the program computes it. -/
def wrap (x : IVec S130816 32) : IVec S130816 32 := val_main_v31 (F := Ideal) x

theorem wrap_v38 (x : IVec S130816 32) : val_main_v38 (F := Ideal) x = wrap x := rfl
theorem wrap_v45 (x : IVec S130816 32) : val_main_v45 (F := Ideal) x = wrap x := rfl
theorem wrap_v50 (x : IVec S130816 32) : val_main_v50 (F := Ideal) x = wrap x := rfl

/-- The clamp of a start index into the 512 rows. -/
abbrev cl (v : BitVec 32) : Fin 512 := clampRow 512 (by decide) v

theorem idx_v32 (x12 : IVec S130816 32) (p : Fin 130816) (u : Fin 1) : val_main_v32 (F := Ideal) x12 (ix2 p u) = wrap x12 (ix1 p) :=
  bcast_col bcast_S130816_S130816x1_0 _ p u
theorem idx_v39 (x13 : IVec S130816 32) (p : Fin 130816) (u : Fin 1) : val_main_v39 (F := Ideal) x13 (ix2 p u) = wrap x13 (ix1 p) :=
  bcast_col bcast_S130816_S130816x1_0 _ p u
theorem idx_v53_0 (x12 : IVec S130816 32) (x13 : IVec S130816 32) (p : Fin 130816) : val_main_v53 (F := Ideal) x12 x13 (ix2 p (0 : Fin 2)) = wrap x12 (ix1 p) :=
  (cols_first _ _ concatenates_S130816x1_S130816x1_S130816x2_d1 p).trans (bcast_col bcast_S130816_S130816x1_0 _ p 0)
theorem idx_v53_1 (x12 : IVec S130816 32) (x13 : IVec S130816 32) (p : Fin 130816) : val_main_v53 (F := Ideal) x12 x13 (ix2 p (1 : Fin 2)) = wrap x13 (ix1 p) :=
  (cols_second _ _ concatenates_S130816x1_S130816x1_S130816x2_d1 p).trans (bcast_col bcast_S130816_S130816x1_0 _ p 0)

/-! ## The gathered rows -/

theorem rows_v33 (x0 : FVec Ideal S512x128 .f32) (x12 : IVec S130816 32) (p : Fin 130816) (g : Fin 128) :
    val_main_v33 (F := Ideal) x0 x12 (ix2 p g) = x0 (ix2 (cl (wrap x12 (ix1 p))) g) := by
  unfold val_main_v33
  refine (rowGather_apply (N := 512) (E := 130816) (C := 128) (by decide) gather_S512x128_S130816x1_S130816x128_1_0_n_n_0_1_1128.wf x0 (val_main_v32 (F := Ideal) x12) (ix2 p g)).trans ?_
  show x0 (ix2 (cl (val_main_v32 (F := Ideal) x12 (ix2 p (0 : Fin 1)))) g) = _
  rw [idx_v32]

theorem rows_v40 (x0 : FVec Ideal S512x128 .f32) (x13 : IVec S130816 32) (p : Fin 130816) (g : Fin 128) :
    val_main_v40 (F := Ideal) x0 x13 (ix2 p g) = x0 (ix2 (cl (wrap x13 (ix1 p))) g) := by
  unfold val_main_v40
  refine (rowGather_apply (N := 512) (E := 130816) (C := 128) (by decide) gather_S512x128_S130816x1_S130816x128_1_0_n_n_0_1_1128.wf x0 (val_main_v39 (F := Ideal) x13) (ix2 p g)).trans ?_
  show x0 (ix2 (cl (val_main_v39 (F := Ideal) x13 (ix2 p (0 : Fin 1)))) g) = _
  rw [idx_v39]

theorem rows_v54 (x1 : FVec Ideal S512x512x128 .f32) (x12 : IVec S130816 32) (x13 : IVec S130816 32) (p : Fin 130816) (g : Fin 128) :
    val_main_v54 (F := Ideal) x1 x12 x13 (ix2 p g) = x1 (ix3 (cl (wrap x12 (ix1 p))) (cl (wrap x13 (ix1 p))) g) := by
  unfold val_main_v54
  refine (pairGather_apply (N := 512) (M := 512) (E := 130816) (C := 128) (by decide) (by decide) gather_S512x512x128_S130816x2_S130816x128_1_01_n_n_01_1_11128.wf x1 (val_main_v53 (F := Ideal) x12 x13) (ix2 p g)).trans ?_
  show x1 (ix3 (cl (val_main_v53 (F := Ideal) x12 x13 (ix2 p (0 : Fin 2)))) (cl (val_main_v53 (F := Ideal) x12 x13 (ix2 p (1 : Fin 2)))) g) = _
  rw [idx_v53_0, idx_v53_1]

/-- The feature row of the p-th listed pair. -/
theorem row_v55 (x0 : FVec Ideal S512x128 .f32) (x1 : FVec Ideal S512x512x128 .f32) (x12 : IVec S130816 32) (x13 : IVec S130816 32) (p : Fin 130816) (f : Fin 384) :
    val_main_v55 (F := Ideal) x0 x1 x12 x13 (ix2 p f)
      = row3 (fun g => x0 (ix2 (cl (wrap x12 (ix1 p))) g)) (fun g => x0 (ix2 (cl (wrap x13 (ix1 p))) g))
          (fun g => x1 (ix3 (cl (wrap x12 (ix1 p))) (cl (wrap x13 (ix1 p))) g)) f := by
  unfold val_main_v55
  by_cases h1 : f.val < 128
  · rw [row3_first _ _ _ f h1]
    exact (rows_first _ _ _ concatenates_S130816x128_S130816x128_S130816x128_S130816x384_d1 p f h1).trans (rows_v33 x0 x12 p _)
  · by_cases h2 : f.val < 256
    · rw [row3_second _ _ _ f h1 h2]
      exact (rows_second _ _ _ concatenates_S130816x128_S130816x128_S130816x128_S130816x384_d1 p f h1 h2).trans (rows_v40 x0 x13 p _)
    · rw [row3_third _ _ _ f h1 h2]
      exact (rows_third _ _ _ concatenates_S130816x128_S130816x128_S130816x128_S130816x384_d1 p f h1 h2).trans (rows_v54 x1 x12 x13 p _)

/-! ## The two layers -/

theorem layer_v59 (x0 : FVec Ideal S512x128 .f32) (x1 : FVec Ideal S512x512x128 .f32) (x8 : FVec Ideal S384x256 .f32) (x9 : FVec Ideal S256 .f32) (x12 : IVec S130816 32) (x13 : IVec S130816 32) (p : Fin 130816) (h : Fin 256) :
    val_main_v59 (F := Ideal) x0 x1 x8 x9 x12 x13 (ix2 p h)
      = (∑ f : Fin 384, val_main_v55 (F := Ideal) x0 x1 x12 x13 (ix2 p f) * x8 (ix2 f h)) + x9 (ix1 h) := by
  show addf (Host.dotGeneral dot_S130816x384_S384x256_S130816x256_1_0_0_1_n_n none (val_main_v55 (F := Ideal) x0 x1 x12 x13) x8)
      (broadcastInDim S130816x256 ![0, 1] bcast_S1x256_S130816x256_0_1 (val_main_v57 (F := Ideal) x9)) (ix2 p h) = _
  rw [hostAffine_eq dot_S130816x384_S384x256_S130816x256_1_0_0_1_n_n (contr_rank dot_S130816x384_S384x256_S130816x256_1_0_0_1_n_n rfl) (contr_size dot_S130816x384_S384x256_S130816x256_1_0_0_1_n_n rfl) (lhs_row dot_S130816x384_S384x256_S130816x256_1_0_0_1_n_n rfl rfl) (lhs_col dot_S130816x384_S384x256_S130816x256_1_0_0_1_n_n rfl) (rhs_row dot_S130816x384_S384x256_S130816x256_1_0_0_1_n_n rfl rfl) (rhs_col dot_S130816x384_S384x256_S130816x256_1_0_0_1_n_n rfl rfl rfl rfl) bcast_S1x256_S130816x256_0_1 none, affine_ix2]
  unfold affineAt
  rw [show val_main_v57 (F := Ideal) x9 (ix2 (0 : Fin 1) h) = x9 (ix1 h) from bcast_row bcast_S256_S1x256_1 x9 0 h]

theorem act_v60 (x0 : FVec Ideal S512x128 .f32) (x1 : FVec Ideal S512x512x128 .f32) (x8 : FVec Ideal S384x256 .f32) (x9 : FVec Ideal S256 .f32) (x12 : IVec S130816 32) (x13 : IVec S130816 32) (p : Fin 130816) (h : Fin 256) :
    val_main_v60 (F := Ideal) x0 x1 x8 x9 x12 x13 (ix2 p h) = silu (val_main_v59 (F := Ideal) x0 x1 x8 x9 x12 x13 (ix2 p h)) := by
  show val_main_v59 (F := Ideal) x0 x1 x8 x9 x12 x13 (ix2 p h)
      * Ideal.div (Ideal.ofBits .f32 0x3F800000#32)
          (Ideal.ofBits .f32 0x3F800000#32 + Ideal.exp (-(val_main_v59 (F := Ideal) x0 x1 x8 x9 x12 x13 (ix2 p h)))) = _
  rw [ofBits_one]
  exact silu_quotient _

theorem layer_v64 (x0 : FVec Ideal S512x128 .f32) (x1 : FVec Ideal S512x512x128 .f32) (x8 : FVec Ideal S384x256 .f32) (x9 : FVec Ideal S256 .f32) (x10 : FVec Ideal S256x196 .f32) (x11 : FVec Ideal S196 .f32) (x12 : IVec S130816 32) (x13 : IVec S130816 32) (p : Fin 130816) (k : Fin 196) :
    val_main_v64 (F := Ideal) x0 x1 x8 x9 x10 x11 x12 x13 (ix2 p k)
      = (∑ h : Fin 256, val_main_v60 (F := Ideal) x0 x1 x8 x9 x12 x13 (ix2 p h) * x10 (ix2 h k)) + x11 (ix1 k) := by
  show addf (Host.dotGeneral dot_S130816x256_S256x196_S130816x196_1_0_0_1_n_n none (val_main_v60 (F := Ideal) x0 x1 x8 x9 x12 x13) x10)
      (broadcastInDim S130816x196 ![0, 1] bcast_S1x196_S130816x196_0_1 (val_main_v62 (F := Ideal) x11)) (ix2 p k) = _
  rw [hostAffine_eq dot_S130816x256_S256x196_S130816x196_1_0_0_1_n_n (contr_rank dot_S130816x256_S256x196_S130816x196_1_0_0_1_n_n rfl) (contr_size dot_S130816x256_S256x196_S130816x196_1_0_0_1_n_n rfl) (lhs_row dot_S130816x256_S256x196_S130816x196_1_0_0_1_n_n rfl rfl) (lhs_col dot_S130816x256_S256x196_S130816x196_1_0_0_1_n_n rfl) (rhs_row dot_S130816x256_S256x196_S130816x196_1_0_0_1_n_n rfl rfl) (rhs_col dot_S130816x256_S256x196_S130816x196_1_0_0_1_n_n rfl rfl rfl rfl) bcast_S1x196_S130816x196_0_1 none, affine_ix2]
  unfold affineAt
  rw [show val_main_v62 (F := Ideal) x11 (ix2 (0 : Fin 1) k) = x11 (ix1 k) from bcast_row bcast_S196_S1x196_1 x11 0 k]

/-- THE REFERENCE'S CORRECTION AT AN INDEX: entry (p, k) is the perceptron's entry k of the p-th pair's feature row. -/
theorem off_apply (x0 : FVec Ideal S512x128 .f32) (x1 : FVec Ideal S512x512x128 .f32) (x8 : FVec Ideal S384x256 .f32) (x9 : FVec Ideal S256 .f32) (x10 : FVec Ideal S256x196 .f32) (x11 : FVec Ideal S196 .f32) (x12 : IVec S130816 32) (x13 : IVec S130816 32) (p : Fin 130816) (k : Fin 196) :
    val_main_v64 (F := Ideal) x0 x1 x8 x9 x10 x11 x12 x13 (ix2 p k)
      = mlpEntry (row3 (fun g => x0 (ix2 (cl (wrap x12 (ix1 p))) g)) (fun g => x0 (ix2 (cl (wrap x13 (ix1 p))) g))
            (fun g => x1 (ix3 (cl (wrap x12 (ix1 p))) (cl (wrap x13 (ix1 p))) g)))
          (fun f h => x8 (ix2 f h)) (fun h => x9 (ix1 h)) (fun h k => x10 (ix2 h k)) (fun k => x11 (ix1 k)) k := by
  rw [layer_v64]
  unfold mlpEntry
  refine congrArg (· + x11 (ix1 k)) (Finset.sum_congr rfl fun h _ => ?_)
  rw [act_v60, layer_v59]
  refine congrArg (fun s => silu (s + x9 (ix1 h)) * x10 (ix2 h k)) (Finset.sum_congr rfl fun f _ => ?_)
  rw [row_v55]

end Cert.ReferenceIdeal.Off

end
-- ==== Proof.Assemble.lean ====
/-
  The assembly of the dense [7168, 7168] matrix out of its blocks, as ONE function.

  Both programs end the same way: a zero [512, 14, 512, 14] array receives the 512 diagonal blocks at (n, ·, n, ·), then the
  listed pairs' blocks at (pair_i, ·, pair_j, ·), then their transposes at (pair_j, ·, pair_i, ·) — three scatters whose
  start indices are the atom numbers with negatives wrapped —, and is reshaped. `assembleI iota diag off pi pj` is that, as a
  function of the diagonal blocks, the off-diagonal blocks and the index vectors (`iota` the vector 0 … 511 the first scatter
  is indexed by). It is never opened: two runs that end in it with equal blocks end equal.
-/
import proofs.«124574_j70162585747869_2_alg».proof.Proof.Gen.ReferenceIdeal.Read

set_option maxRecDepth 16384

noncomputable section

namespace Cert.ReferenceIdeal.Off

open Idealize.ShloMosaic
open Cert.ReferenceIdeal Cert.ReferenceIdeal.Gen Cert.ReferenceIdeal.Read

variable {F : FTy → Type} [FloatOps F]

/-- The vector 0 … 511 with negatives wrapped (there are none), as the programs compute it before every use. -/
def wrapIota (iota : IVec S512 32) : IVec S512 32 :=
  select (cmpi .slt iota (broadcastInDim S512 ![] bcast_S_S512 (constantI S_ 32 0#32)))
    (addi iota (broadcastInDim S512 ![] bcast_S_S512 (constantI S_ 32 512#32))) iota

/-- The assembly. -/
def assembleI (iota : IVec S512 32) (diag : FVec F S512x14x14 .f32) (off : FVec F S130816x14x14 .f32)
    (x12 x13 : IVec S130816 32) : FVec F S7168x7168 .f32 :=
  shapeCast S7168x7168
    (Host.scatter scatter_S512x14x512x14_S130816x2_S130816x14x14_12_02_02_1 (fun _ b => b)
      (Host.scatter scatter_S512x14x512x14_S130816x2_S130816x14x14_12_02_02_1 (fun _ b => b)
        (Host.scatter scatter_S512x14x512x14_S512x2_S512x14x14_12_02_02_1 (fun _ b => b)
          (broadcastInDim S512x14x512x14 ![] bcast_S_S512x14x512x14 (constant (F := F) S_ .f32 0x00000000#32))
          (concatenate S512x2 1 [⟨S512x1, broadcastInDim S512x1 ![0] bcast_S512_S512x1_0 (wrapIota iota)⟩,
            ⟨S512x1, broadcastInDim S512x1 ![0] bcast_S512_S512x1_0 (wrapIota iota)⟩] concatenates_S512x1_S512x1_S512x2_d1)
          diag)
        (val_main_v94 (F := F) x12 x13) off)
      (val_main_v109 (F := F) x12 x13)
      (transpose S130816x14x14 [0, 2, 1] off transposes_S130816x14x14_S130816x14x14_0_2_1))
    shapeCasts_S512x14x512x14_S7168x7168

/-- The reference's result is the assembly of its diagonal and off-diagonal blocks. -/
theorem ref_assemble (x0 : FVec F S512x128 .f32) (x1 : FVec F S512x512x128 .f32) (x2 : FVec F S512x14x14 .f32)
    (x3 : FVec F S130816x14x14 .f32) (x4 : FVec F S256x256 .f32) (x5 : FVec F S256 .f32) (x6 : FVec F S256x196 .f32)
    (x7 : FVec F S196 .f32) (x8 : FVec F S384x256 .f32) (x9 : FVec F S256 .f32) (x10 : FVec F S256x196 .f32)
    (x11 : FVec F S196 .f32) (x12 x13 : IVec S130816 32) :
    val_main_v111 (F := F) x0 x1 x2 x3 x4 x5 x6 x7 x8 x9 x10 x11 x12 x13
      = assembleI (iotaInDim S512 32 0) (val_main_v26 (F := F) x0 x1 x2 x4 x5 x6 x7)
          (val_main_v66 (F := F) x0 x1 x3 x8 x9 x10 x11 x12 x13) x12 x13 := rfl

end Cert.ReferenceIdeal.Off

end
-- ==== Proof.KernelIdealTail.lean ====
/-
  The kernel program's result, read off its frame run.

  After the region the program gathers, out of the dense [512, 512, 196] result, the rows of the listed pairs
  (start indices wrapped, then clamped by the gather), widens them back to single precision (the identity on the extended
  reals), reshapes them into 14 × 14 blocks and adds the overlap blocks; the diagonal blocks were computed before the region.
  The remaining lines are the common assembly. So the result buffer ends at the assembly of
  * the diagonal blocks, which the lines before the region compute exactly as the reference does, and
  * the overlap blocks plus the gathered rows of the dense correction.
  The dense correction gathered at a listed pair IS the reference's correction of that pair — the perceptron's entry of
  the same feature row, the dense array's row (A, B) being the row of nodes A and B whatever pair they came from —, which
  joins the two programs.
-/
import proofs.«124574_j70162585747869_2_alg».proof.Proof.KernelIdealDense
import proofs.«124574_j70162585747869_2_alg».proof.Proof.ReferenceOff
import proofs.«124574_j70162585747869_2_alg».proof.Proof.Assemble
import Idealize.ShloMosaic.Lib.StableHlo.Run

set_option maxRecDepth 16384

noncomputable section

namespace Cert.KernelIdeal.Around

open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen Cert.OffDiag Cert.LibPairGather Idealize.ShloMosaic.SegmentSum

variable (m : (ℓ : Loc nD τ sig) → Buf (Elt Ideal) ℓ) (ρ : Dev nD → PrngReg)

/-! ## The dense correction gathered at the listed pairs is the reference's correction -/

/-- The gathered rows of the dense correction, widened: entry (p, k) is the reference's correction of the p-th pair. The
    weights reach the kernel narrowed to bfloat16, which on the extended reals changes nothing. -/
theorem gathered_dense (x0 : FVec Ideal S512x128 .f32) (x1 : FVec Ideal S512x512x128 .f32) (x8 : FVec Ideal S384x256 .f32)
    (x9 : FVec Ideal S256 .f32) (x10 : FVec Ideal S256x196 .f32) (x11 : FVec Ideal S196 .f32) (x12 x13 : IVec S130816 32) :
    extf .f32 (Host.gather gather_S512x512x196_S130816x2_S130816x196_1_01_n_n_01_1_11196
        (dense x0 x1 (truncf .bf16 x8 bitsLt_bf16_f32) x9 (truncf .bf16 x10 bitsLt_bf16_f32) x11)
        (Cert.ReferenceIdeal.Read.val_main_v53 (F := Ideal) x12 x13)) bitsLt_bf16_f32
      = Cert.ReferenceIdeal.Read.val_main_v64 (F := Ideal) x0 x1 x8 x9 x10 x11 x12 x13 := by
  funext i
  obtain ⟨p, k, rfl⟩ : ∃ (p : Fin 130816) (k : Fin 196), i = ix2 p k := ⟨i 0, i 1, eq_ix2 i⟩
  rw [Cert.ReferenceIdeal.Off.off_apply]
  show Host.gather gather_S512x512x196_S130816x2_S130816x196_1_01_n_n_01_1_11196
      (dense x0 x1 (truncf .bf16 x8 bitsLt_bf16_f32) x9 (truncf .bf16 x10 bitsLt_bf16_f32) x11)
      (Cert.ReferenceIdeal.Read.val_main_v53 (F := Ideal) x12 x13) (ix2 p k) = _
  refine (pairGather_apply (N := 512) (M := 512) (E := 130816) (C := 196) (by decide) (by decide) gather_S512x512x196_S130816x2_S130816x196_1_01_n_n_01_1_11196.wf
    (dense x0 x1 (truncf .bf16 x8 bitsLt_bf16_f32) x9 (truncf .bf16 x10 bitsLt_bf16_f32) x11)
    (Cert.ReferenceIdeal.Read.val_main_v53 (F := Ideal) x12 x13) (ix2 p k)).trans ?_
  show dense x0 x1 (truncf .bf16 x8 bitsLt_bf16_f32) x9 (truncf .bf16 x10 bitsLt_bf16_f32) x11
      (ix3 (Cert.ReferenceIdeal.Off.cl (Cert.ReferenceIdeal.Read.val_main_v53 (F := Ideal) x12 x13 (ix2 p (0 : Fin 2))))
        (Cert.ReferenceIdeal.Off.cl (Cert.ReferenceIdeal.Read.val_main_v53 (F := Ideal) x12 x13 (ix2 p (1 : Fin 2)))) k) = _
  rw [Cert.ReferenceIdeal.Off.idx_v53_0, Cert.ReferenceIdeal.Off.idx_v53_1, dense_ix3]
  rfl

/-! ## What the region finds in the buffers the later lines read -/

theorem entry_iota (c : Dev nD) : @Eq (IVec S512 32) (V m c main_v0) (iotaInDim S512 32 0) := by
  dsimp only [V, V0]
  simp only [hostOps0, hostOps0_1, hostOps0_2, List.flatten_cons, List.flatten_nil, List.append_nil, List.cons_append, List.nil_append]
  after_results <;> rfl

set_option maxHeartbeats 8000000 in
theorem entry_diag (c : Dev nD) : @Eq (FVec Ideal S512x14x14 .f32) (V m c main_v26)
    (Cert.ReferenceIdeal.Read.val_main_v26 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7))) := by
  dsimp only [V, V0]
  simp only [hostOps0, hostOps0_1, hostOps0_2, List.flatten_cons, List.flatten_nil, List.append_nil, List.cons_append, List.nil_append]
  after_results_simp <;> rfl

theorem entry_w1 (c : Dev nD) : @Eq (FVec Ideal S384x256 .bf16) (V m c main_v27) (truncf .bf16 (m ((c.tc : Thread nD τ).loc main_arg8)) bitsLt_bf16_f32) := by
  dsimp only [V, V0]
  simp only [hostOps0, hostOps0_1, hostOps0_2, List.flatten_cons, List.flatten_nil, List.append_nil, List.cons_append, List.nil_append]
  after_results <;> rfl

theorem entry_w2 (c : Dev nD) : @Eq (FVec Ideal S256x196 .bf16) (V m c main_v28) (truncf .bf16 (m ((c.tc : Thread nD τ).loc main_arg10)) bitsLt_bf16_f32) := by
  dsimp only [V, V0]
  simp only [hostOps0, hostOps0_1, hostOps0_2, List.flatten_cons, List.flatten_nil, List.append_nil, List.cons_append, List.nil_append]
  after_results <;> rfl

/-! ## The later lines, read once for any contents -/

/-- The 79 lines after the region as one function of the six buffers they read: the vector 0 … 511, the diagonal blocks, the
    overlap blocks, the dense correction and the two index vectors. The rows of the listed pairs are gathered out of the dense
    correction, widened, reshaped into 14 × 14 blocks and added to the overlap blocks; the rest is the common assembly. -/
def tailOf (iota : IVec S512 32) (diag : FVec Ideal S512x14x14 .f32) (x3 : FVec Ideal S130816x14x14 .f32)
    (d : FVec Ideal S512x512x196 .bf16) (x12 x13 : IVec S130816 32) : FVec Ideal S7168x7168 .f32 :=
  Cert.ReferenceIdeal.Off.assembleI (F := Ideal) iota diag
    (addf x3
      (shapeCast S130816x14x14 (extf .f32 (Host.gather gather_S512x512x196_S130816x2_S130816x196_1_01_n_n_01_1_11196 d
        (Cert.ReferenceIdeal.Read.val_main_v53 (F := Ideal) x12 x13)) bitsLt_bf16_f32)
        shapeCasts_S130816x196_S130816x14x14))
    x12 x13

theorem tailOf_congr {iota iota' : IVec S512 32} {diag diag' : FVec Ideal S512x14x14 .f32} {x3 x3' : FVec Ideal S130816x14x14 .f32}
    {d d' : FVec Ideal S512x512x196 .bf16} {x12 x12' x13 x13' : IVec S130816 32}
    (h0 : iota = iota') (h1 : diag = diag') (h2 : x3 = x3') (h3 : d = d') (h4 : x12 = x12') (h5 : x13 = x13') :
    tailOf iota diag x3 d x12 x13 = tailOf iota' diag' x3' d' x12' x13' := by
  rw [h0, h1, h2, h3, h4, h5]

set_option maxHeartbeats 8000000 in
/-- The later lines from any buffer contents `W`: the result buffer ends at `tailOf` of what `W` holds in the six buffers. -/
theorem tail_read (W : Valuation τ sig (Elt Ideal)) :
    @Eq (FVec Ideal S7168x7168 .f32) (StableHlo.after hostOps1 W (Proc.devRef .tc main_v91))
      (tailOf (W (Proc.devRef .tc main_v0)) (W (Proc.devRef .tc main_v26)) (W (Proc.devRef .tc main_arg3))
        (W (Proc.devRef .tc main_v29)) (W (Proc.devRef .tc main_arg12)) (W (Proc.devRef .tc main_arg13))) := by
  unfold tailOf
  after_results_simp <;> rfl

/-! ## The result -/

/-- What the program returns, as a function of the launch contents: the reference's result term of the same fourteen arrays. -/
def result (c : Dev nD) : FVec Ideal S7168x7168 .f32 :=
  Cert.ReferenceIdeal.Read.val_main_v111 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))

/-- The later lines applied to what the region leaves give the reference's result term: the diagonal blocks are computed by the same
    lines, and the gathered dense correction is the reference's correction of the listed pairs. -/
theorem tailOf_result (c : Dev nD) :
    tailOf (iotaInDim S512 32 0)
      (Cert.ReferenceIdeal.Read.val_main_v26 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)))
      (m ((c.tc : Thread nD τ).loc main_arg3))
      (dense (m ((c.tc : Thread nD τ).loc main_arg0)) (m ((c.tc : Thread nD τ).loc main_arg1)) (truncf .bf16 (m ((c.tc : Thread nD τ).loc main_arg8)) bitsLt_bf16_f32) (m ((c.tc : Thread nD τ).loc main_arg9)) (truncf .bf16 (m ((c.tc : Thread nD τ).loc main_arg10)) bitsLt_bf16_f32) (m ((c.tc : Thread nD τ).loc main_arg11)))
      (m ((c.tc : Thread nD τ).loc main_arg12)) (m ((c.tc : Thread nD τ).loc main_arg13))
      = result m c := by
  unfold tailOf
  rw [gathered_dense]
  exact (Cert.ReferenceIdeal.Off.ref_assemble (F := Ideal) _ _ _ _ _ _ _ _ _ _ _ _ _ _).symm

/-- The result buffer as the later lines leave it. -/
theorem kernel_result (c : Dev nD) :
    Pipeline.afterTail₀ cfgs (dats m) 0 (V0 m) [hostOps1] c main_v91 = result m c := by
  unfold Pipeline.afterTail₀
  show StableHlo.after hostOps1 _ (Proc.devRef .tc main_v91) = _
  refine (tail_read _).trans ((tailOf_congr ?_ ?_ ?_ ?_ ?_ ?_).trans (tailOf_result m c))
  · exact (Pipeline.withArrays_of_ne _ c (V0 m c) _ main_v0 (by exact (by decide : ∀ w, Pipeline.arrRef spec0 w ≠ main_v0))).trans (entry_iota m c)
  · exact (Pipeline.withArrays_of_ne _ c (V0 m c) _ main_v26 (by exact (by decide : ∀ w, Pipeline.arrRef spec0 w ≠ main_v26))).trans (entry_diag m c)
  · exact (Pipeline.withArrays_of_ne _ c (V0 m c) _ main_arg3 (by exact (by decide : ∀ w, Pipeline.arrRef spec0 w ≠ main_arg3))).trans (entry_arg3 m c)
  · refine (Pipeline.withArrays_arr spec0 launch0.win.arr_inj c _ _ 6).trans ((final6 m c).trans ?_)
    rw [entry_arg0 m c, entry_arg1 m c, entry_w1 m c, entry_arg9 m c, entry_w2 m c, entry_arg11 m c]
  · exact (Pipeline.withArrays_of_ne _ c (V0 m c) _ main_arg12 (by exact (by decide : ∀ w, Pipeline.arrRef spec0 w ≠ main_arg12))).trans (entry_arg12 m c)
  · exact (Pipeline.withArrays_of_ne _ c (V0 m c) _ main_arg13 (by exact (by decide : ∀ w, Pipeline.arrRef spec0 w ≠ main_arg13))).trans (entry_arg13 m c)

/-- The run, read: every weakly fair execution terminates with the result buffer at `result` and the fourteen arguments as launched. -/
theorem run : θ_run defs (onTc (τ := τ) (main (F := Ideal))) ⟨m, fun _ => 0, ρ⟩ (fun r => ∀ c : Dev nD,
      r.2.mem ((c.tc : Thread nD τ).loc main_v91) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨((h c).2 main_v91 (Pipeline.mem_restRefs_of main_v91 (by decide) (by decide))).trans (kernel_result m c),
      ((h c).1 0).trans (((dats m 0 c).arrAt_in 0 rfl _).trans ((A_eq m c 0).trans (entry_arg0 m c))),
      ((h c).1 1).trans (((dats m 0 c).arrAt_in 1 rfl _).trans ((A_eq m c 1).trans (entry_arg1 m c))),
      ((h c).2 main_arg2 (Pipeline.mem_restRefs_of main_arg2 (by decide) (by decide))).trans (exit_arg2 m (dats m) c),
      ((h c).2 main_arg3 (Pipeline.mem_restRefs_of main_arg3 (by decide) (by decide))).trans (exit_arg3 m (dats m) c),
      ((h c).2 main_arg4 (Pipeline.mem_restRefs_of main_arg4 (by decide) (by decide))).trans (exit_arg4 m (dats m) c),
      ((h c).2 main_arg5 (Pipeline.mem_restRefs_of main_arg5 (by decide) (by decide))).trans (exit_arg5 m (dats m) c),
      ((h c).2 main_arg6 (Pipeline.mem_restRefs_of main_arg6 (by decide) (by decide))).trans (exit_arg6 m (dats m) c),
      ((h c).2 main_arg7 (Pipeline.mem_restRefs_of main_arg7 (by decide) (by decide))).trans (exit_arg7 m (dats m) c),
      ((h c).2 main_arg8 (Pipeline.mem_restRefs_of main_arg8 (by decide) (by decide))).trans (exit_arg8 m (dats m) c),
      ((h c).1 3).trans (((dats m 0 c).arrAt_in 3 rfl _).trans ((A_eq m c 3).trans (entry_arg9 m c))),
      ((h c).2 main_arg10 (Pipeline.mem_restRefs_of main_arg10 (by decide) (by decide))).trans (exit_arg10 m (dats m) c),
      ((h c).1 5).trans (((dats m 0 c).arrAt_in 5 rfl _).trans ((A_eq m c 5).trans (entry_arg11 m c))),
      ((h c).2 main_arg12 (Pipeline.mem_restRefs_of main_arg12 (by decide) (by decide))).trans (exit_arg12 m (dats m) c),
      ((h c).2 main_arg13 (Pipeline.mem_restRefs_of main_arg13 (by decide) (by decide))).trans (exit_arg13 m (dats m) c)⟩) (run_main m ρ)

end Cert.KernelIdeal.Around

end
-- ==== Proof.lean ====
/-
  The certificate of the Hamiltonian-block layer: the kernel program against its reference.

  Both programs build the same dense [7168, 7168] matrix from 14 × 14 blocks. The diagonal blocks are computed by the
  same lines in both. The off-diagonal blocks differ in how they are reached: the reference gathers the feature row of
  each listed pair of atoms (node row i, node row j, edge row (i, j)) and applies a two-layer perceptron to the gathered
  rows; the kernel program applies the perceptron to the feature rows of ALL 512 × 512 ordered pairs, tile by tile, and
  gathers the listed pairs' results afterwards. The perceptron acts on each row by itself, so applying it before or
  after the gather gives the same entries; no sum is regrouped, so nothing needs the inputs to be finite.
  The frames: each program runs to the end and leaves its fourteen arguments as launched. The idealization pass rewrote
  nothing, so `preserves` is trivial.
-/
import proofs.«124574_j70162585747869_2_alg».proof.Defs
import proofs.«124574_j70162585747869_2_alg».proof.Proof.Gen.Kernel
import proofs.«124574_j70162585747869_2_alg».proof.Proof.Gen.Kernel.Skeleton
import proofs.«124574_j70162585747869_2_alg».proof.Proof.Gen.Kernel.Launch
import proofs.«124574_j70162585747869_2_alg».proof.Proof.Gen.Kernel.Points
import proofs.«124574_j70162585747869_2_alg».proof.Proof.Gen.KernelIdeal
import proofs.«124574_j70162585747869_2_alg».proof.Proof.Gen.KernelIdeal.Skeleton
import proofs.«124574_j70162585747869_2_alg».proof.Proof.Gen.KernelIdeal.Launch
import proofs.«124574_j70162585747869_2_alg».proof.Proof.Gen.KernelIdeal.Points
import proofs.«124574_j70162585747869_2_alg».proof.Proof.Gen.ReferenceIdeal
import proofs.«124574_j70162585747869_2_alg».proof.Proof.Gen.ReferenceIdeal.Run
import proofs.«124574_j70162585747869_2_alg».proof.Proof.Gen.ReferenceIdeal.Read
import proofs.«124574_j70162585747869_2_alg».proof.Proof.Gen.Pre_finite_inputs
import proofs.«124574_j70162585747869_2_alg».proof.Proof.KernelBody
import proofs.«124574_j70162585747869_2_alg».proof.Proof.KernelIdealTail
import Idealize.ShloMosaic.Adequacy
import Idealize.ShloMosaic.Init

set_option maxRecDepth 16384

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Around.frame m ρ,
  fun m ρ _ => Cert.KernelIdeal.Around.frame m ρ,
  fun m ρ _ => (θ_run Cert.ReferenceIdeal.defs _ _).mono (fun _ h c => (h c).2) (Cert.ReferenceIdeal.Value.run (F := Ideal) m ρ),
  trivial,
  fun m ρ m' ρ' _ hagree => ⟨fun c => Cert.KernelIdeal.Around.result m c, Cert.KernelIdeal.Around.run m ρ,
    (θ_run Cert.ReferenceIdeal.defs _ _).mono (fun _ h c => ⟨((h c).1.trans (Cert.ReferenceIdeal.Read.val_main_v111_eq m' c)).trans (by
        obtain ⟨a0, a1, a2, a3, a4, a5, a6, a7, a8, a9, a10, a11, a12, a13⟩ := hagree c
        rw [a0, a1, a2, a3, a4, a5, a6, a7, a8, a9, a10, a11, a12, a13] <;> rfl), (h c).2⟩)
      (Cert.ReferenceIdeal.Value.run (F := Ideal) m' ρ')⟩⟩

end Cert.Proof

end
